-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x544 : Shape := ⟨2, ![16384, 544]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x256 : Shape := ⟨2, ![96, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S16384x544 : S_.BroadcastsInDim S16384x544 (![] : Fin 0 → Fin S16384x544.rank)
  reducesTo_S16384x544_S_d0_1 : S16384x544.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S96x256 : S_.BroadcastsInDim S96x256 (![] : Fin 0 → Fin S96x256.rank)
  reducesTo_S96x256_S_d0_1 : S96x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S96x256 .f32) (main_arg8 : FVec F S256 .f32) (main_arg9 : FVec F S256x16 .f32) (main_arg10 : FVec F S16 .f32) (main_v33 : IVec S_ 1) : IVec S_ 1 :=
  let main_v34 : FVec F S96x256 .f32 := Host.absf main_arg7
  let main_cst_12 : FVec F S_ .f32 := constant S_ .f32 0x7F800000#32
  let main_v35 : FVec F S96x256 .f32 := broadcastInDim S96x256 ![] bcast_S_S96x256 main_cst_12
  let main_v36 : IVec S96x256 1 := cmpf .olt main_v34 main_v35
  let main_c_13 : IVec S_ 1 := constantI S_ 1 1#1
  let main_v37 : IVec S_ 1 := (fun x v => Host.reduce IntOp.andi x v reducesTo_S96x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x16 .f32 := Host.absf main_arg9
  let main_cst_16 : FVec F S_ .f32 := constant S_ .f32 0x7F800000#32
  let main_v45 : FVec F S256x16 .f32 := broadcastInDim S256x16 ![] bcast_S_S256x16 main_cst_16
  let main_v46 : IVec S256x16 1 := cmpf .olt main_v44 main_v45
  let main_c_17 : IVec S_ 1 := constantI S_ 1 1#1
  let main_v47 : IVec S_ 1 := (fun x v => Host.reduce IntOp.andi x v reducesTo_S256x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S128 .f32) (main_arg5 : FVec F S128x64 .f32) (main_arg6 : FVec F S64 .f32) (main_arg7 : FVec F S96x256 .f32) (main_arg8 : FVec F S256 .f32) (main_arg9 : FVec F S256x16 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x544 .f32) (main_arg1 : FVec F S16x128 .f32) (main_arg2 : FVec F S128 .f32) (main_arg3 : FVec F S128x128 .f32) (main_arg4 : FVec F S128 .f32) (main_arg5 : FVec F S128x64 .f32) (main_arg6 : FVec F S64 .f32) (main_arg7 : FVec F S96x256 .f32) (main_arg8 : FVec F S256 .f32) (main_arg9 : FVec F S256x16 .f32) (main_arg10 : FVec F S16 .f32) : IVec S_ 1 :=
  let main_v0 : FVec F S16384x544 .f32 := Host.absf main_arg0
  let main_cst : FVec F S_ .f32 := constant S_ .f32 0x7F800000#32
  let main_v1 : FVec F S16384x544 .f32 := broadcastInDim S16384x544 ![] bcast_S_S16384x544 main_cst
  let main_v2 : IVec S16384x544 1 := cmpf .olt main_v0 main_v1
  let main_c : IVec S_ 1 := constantI S_ 1 1#1
  let main_v3 : IVec S_ 1 := (fun x v => Host.reduce IntOp.andi x v reducesTo_S16384x544_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S16384x544 : Shape := ⟨2, ![16384, 544]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x256 : Shape := ⟨2, ![96, 256]⟩
abbrev S256 : Shape := ⟨1, ![256]⟩
abbrev S256x16 : Shape := ⟨2, ![256, 16]⟩
abbrev S16 : Shape := ⟨1, ![16]⟩
abbrev S1x128 : Shape := ⟨2, ![1, 128]⟩
abbrev S1x64 : Shape := ⟨2, ![1, 64]⟩
abbrev S1x256 : Shape := ⟨2, ![1, 256]⟩
abbrev S1x16 : Shape := ⟨2, ![1, 16]⟩
abbrev S16384x16 : Shape := ⟨2, ![16384, 16]⟩
abbrev S512x544 : Shape := ⟨2, ![512, 544]⟩
abbrev S512x16 : Shape := ⟨2, ![512, 16]⟩
abbrev S512x512 : Shape := ⟨2, ![512, 512]⟩
abbrev S16384x128 : Shape := ⟨2, ![16384, 128]⟩
abbrev S512x32x128 : Shape := ⟨3, ![512, 32, 128]⟩
abbrev S512x128 : Shape := ⟨2, ![512, 128]⟩
abbrev S512x64 : Shape := ⟨2, ![512, 64]⟩
abbrev S512x96 : Shape := ⟨2, ![512, 96]⟩
abbrev S512x256 : Shape := ⟨2, ![512, 256]⟩

abbrev nBuf : Space → Nat
  | .hbm => 17
  | .vmem => 14
  | .smem => 0
  | _ => 0

abbrev bufTy : (tb : Table) → Fin (tcTables nBuf tb) → BufTy
  | .hbm, ⟨0, _⟩ => ⟨S16384x544, .f32⟩
  | .hbm, ⟨1, _⟩ => ⟨S16x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S96x256, .f32⟩
  | .hbm, ⟨8, _⟩ => ⟨S256, .f32⟩
  | .hbm, ⟨9, _⟩ => ⟨S256x16, .f32⟩
  | .hbm, ⟨10, _⟩ => ⟨S16, .f32⟩
  | .hbm, ⟨11, _⟩ => ⟨S1x128, .f32⟩
  | .hbm, ⟨12, _⟩ => ⟨S1x128, .f32⟩
  | .hbm, ⟨13, _⟩ => ⟨S1x64, .f32⟩
  | .hbm, ⟨14, _⟩ => ⟨S1x256, .f32⟩
  | .hbm, ⟨15, _⟩ => ⟨S1x16, .f32⟩
  | .hbm, ⟨16, _⟩ => ⟨S16384x16, .f32⟩
  | .local _ .vmem, ⟨0, _⟩ => ⟨S512x544, .f32⟩
  | .local _ .vmem, ⟨1, _⟩ => ⟨S512x544, .f32⟩
  | .local _ .vmem, ⟨2, _⟩ => ⟨S16x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S96x256, .f32⟩
  | .local _ .vmem, ⟨9, _⟩ => ⟨S1x256, .f32⟩
  | .local _ .vmem, ⟨10, _⟩ => ⟨S256x16, .f32⟩
  | .local _ .vmem, ⟨11, _⟩ => ⟨S1x16, .f32⟩
  | .local _ .vmem, ⟨12, _⟩ => ⟨S512x16, .f32⟩
  | .local _ .vmem, ⟨13, _⟩ => ⟨S512x16, .f32⟩
  | _, _ => ⟨S16384x544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S128_S1x128 : S128.ShapeCasts S1x128
  shapeCasts_S64_S1x64 : S64.ShapeCasts S1x64
  shapeCasts_S256_S1x256 : S256.ShapeCasts S1x256
  shapeCasts_S16_S1x16 : S16.ShapeCasts S1x16
  inb_S512x544_S512x16_0_0 : ∀ a, (![0, 0] : Fin 2 → Nat) a + S512x16.size a ≤ S512x544.size a
  h_S512x16 : 0 < S512x16.numel
  inb_S512x544_S512x16_0_16 : ∀ a, (![0, 16] : Fin 2 → Nat) a + S512x16.size a ≤ S512x544.size a
  inb_S512x544_S512x512_0_32 : ∀ a, (![0, 32] : Fin 2 → Nat) a + S512x512.size a ≤ S512x544.size a
  h_S512x512 : 0 < S512x512.numel
  shapeCasts_S512x512_S16384x16 : S512x512.ShapeCasts S16384x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  inb_S128x128_S128x128_0_0 : ∀ a, (![0, 0] : Fin 2 → Nat) a + S128x128.size a ≤ S128x128.size a
  h_S128x128 : 0 < S128x128.numel
  shapeCasts_S16384x128_S512x32x128 : S16384x128.ShapeCasts S512x32x128
  reduces_S512x32x128_S512x128 : S512x32x128.Reduces [1] S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  concatenates_S512x16_S512x16_S512x64_S512x96_d1 : Shape.Concatenates [S512x16, S512x16, S512x64] S512x96 1
  inb_S96x256_S96x256_0_0 : ∀ a, (![0, 0] : Fin 2 → Nat) a + S96x256.size a ≤ S96x256.size a
  h_S96x256 : 0 < S96x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S512x16_S512x16_0_0 : ∀ a, (![0, 0] : Fin 2 → Nat) a + S512x16.size a ≤ S512x16.size a
  dot_S16384x16_S16x128_S16384x128_1_0_0_1_n_n_wf : DotDims.WF S16384x16 S16x128 S16384x128 [1] [0] [0] [1] [] []
  dot_S16384x128_S128x128_S16384x128_1_0_0_1_n_n_wf : DotDims.WF S16384x128 S128x128 S16384x128 [1] [0] [0] [1] [] []
  dot_S512x128_S128x64_S512x64_1_0_0_1_n_n_wf : DotDims.WF S512x128 S128x64 S512x64 [1] [0] [0] [1] [] []
  dot_S512x96_S96x256_S512x256_1_0_0_1_n_n_wf : DotDims.WF S512x96 S96x256 S512x256 [1] [0] [0] [1] [] []
  dot_S512x256_S256x16_S512x16_1_0_0_1_n_n_wf : DotDims.WF S512x256 S256x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x544.size a ≤ S16384x544.size a
  hwx0_0 : ∀ i : grid0.Coords, EltTy.bits .f32 = 32 ∨ (Rect.block (s := S16384x544) S512x544.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x256.size a ≤ S96x256.size a
  hwx0_7 : ∀ i : grid0.Coords, EltTy.bits .f32 = 32 ∨ (Rect.block (s := S96x256) S96x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x16.size a ≤ S256x16.size a
  hwx0_9 : ∀ i : grid0.Coords, EltTy.bits .f32 = 32 ∨ (Rect.block (s := S256x16) S256x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x16.size a ≤ S16384x16.size a
  hwx0_11 : ∀ i : grid0.Coords, EltTy.bits .f32 = 32 ∨ (Rect.block (s := S16384x16) S512x16.size (cc0_transform_11 i) (hinb0_11 i)).WholeWords (EltTy.packing .f32)

variable [Facts₀]

def dot_S16384x16_S16x128_S16384x128_1_0_0_1_n_n : DotDims S16384x16 S16x128 S16384x128 where
  lhsContracting := [1]
  rhsContracting := [0]
  lhsNonContracting := [0]
  rhsNonContracting := [1]
  lhsBatch := []
  rhsBatch := []
  wf := dot_S16384x16_S16x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x96_S96x256_S512x256_1_0_0_1_n_n : DotDims S512x96 S96x256 S512x256 where
  lhsContracting := [1]
  rhsContracting := [0]
  lhsNonContracting := [0]
  rhsNonContracting := [1]
  lhsBatch := []
  rhsBatch := []
  wf := dot_S512x96_S96x256_S512x256_1_0_0_1_n_n_wf
def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf

abbrev win0_0 : Pipeline.Window sig grid0 :=
  Pipeline.Window.ofSpec (Memref.whole main_arg0) S512x544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S96x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S512x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x544 : Shape := ⟨2, ![16384, 544]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x256 : Shape := ⟨2, ![96, 256]⟩
abbrev S256 : Shape := ⟨1, ![256]⟩
abbrev S256x16 : Shape := ⟨2, ![256, 16]⟩
abbrev S16 : Shape := ⟨1, ![16]⟩
abbrev S16384x16 : Shape := ⟨2, ![16384, 16]⟩
abbrev S16384x512 : Shape := ⟨2, ![16384, 512]⟩
abbrev S16384x32x16 : Shape := ⟨3, ![16384, 32, 16]⟩
abbrev S16384x32x128 : Shape := ⟨3, ![16384, 32, 128]⟩
abbrev S1x1x128 : Shape := ⟨3, ![1, 1, 128]⟩
abbrev S_ : Shape := ⟨0, ![]⟩
abbrev S16384x32x64 : Shape := ⟨3, ![16384, 32, 64]⟩
abbrev S1x1x64 : Shape := ⟨3, ![1, 1, 64]⟩
abbrev S16384x64 : Shape := ⟨2, ![16384, 64]⟩
abbrev S16384x96 : Shape := ⟨2, ![16384, 96]⟩
abbrev S16384x256 : Shape := ⟨2, ![16384, 256]⟩
abbrev S1x256 : Shape := ⟨2, ![1, 256]⟩
abbrev S1x16 : Shape := ⟨2, ![1, 16]⟩

abbrev nBuf : Space → Nat
  | .hbm => 47
  | .vmem => 0
  | .smem => 0
  | _ => 0

abbrev bufTy : (tb : Table) → Fin (tcTables nBuf tb) → BufTy
  | .hbm, ⟨0, _⟩ => ⟨S16384x544, .f32⟩
  | .hbm, ⟨1, _⟩ => ⟨S16x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S96x256, .f32⟩
  | .hbm, ⟨8, _⟩ => ⟨S256, .f32⟩
  | .hbm, ⟨9, _⟩ => ⟨S256x16, .f32⟩
  | .hbm, ⟨10, _⟩ => ⟨S16, .f32⟩
  | .hbm, ⟨11, _⟩ => ⟨S16384x16, .f32⟩
  | .hbm, ⟨12, _⟩ => ⟨S16384x16, .f32⟩
  | .hbm, ⟨13, _⟩ => ⟨S16384x512, .f32⟩
  | .hbm, ⟨14, _⟩ => ⟨S16384x32x16, .f32⟩
  | .hbm, ⟨15, _⟩ => ⟨S16384x32x128, .f32⟩
  | .hbm, ⟨16, _⟩ => ⟨S1x1x128, .f32⟩
  | .hbm, ⟨17, _⟩ => ⟨S16384x32x128, .f32⟩
  | .hbm, ⟨18, _⟩ => ⟨S16384x32x128, .f32⟩
  | .hbm, ⟨19, _⟩ => ⟨S_, .f32⟩
  | .hbm, ⟨20, _⟩ => ⟨S16384x32x128, .f32⟩
  | .hbm, ⟨21, _⟩ => ⟨S16384x32x128, .f32⟩
  | .hbm, ⟨22, _⟩ => ⟨S16384x32x128, .f32⟩
  | .hbm, ⟨23, _⟩ => ⟨S1x1x128, .f32⟩
  | .hbm, ⟨24, _⟩ => ⟨S16384x32x128, .f32⟩
  | .hbm, ⟨25, _⟩ => ⟨S16384x32x128, .f32⟩
  | .hbm, ⟨26, _⟩ => ⟨S_, .f32⟩
  | .hbm, ⟨27, _⟩ => ⟨S16384x32x128, .f32⟩
  | .hbm, ⟨28, _⟩ => ⟨S16384x32x128, .f32⟩
  | .hbm, ⟨29, _⟩ => ⟨S16384x32x64, .f32⟩
  | .hbm, ⟨30, _⟩ => ⟨S1x1x64, .f32⟩
  | .hbm, ⟨31, _⟩ => ⟨S16384x32x64, .f32⟩
  | .hbm, ⟨32, _⟩ => ⟨S16384x32x64, .f32⟩
  | .hbm, ⟨33, _⟩ => ⟨S_, .f32⟩
  | .hbm, ⟨34, _⟩ => ⟨S16384x64, .f32⟩
  | .hbm, ⟨35, _⟩ => ⟨S16384x96, .f32⟩
  | .hbm, ⟨36, _⟩ => ⟨S16384x256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S16384x16, .f32⟩
  | .hbm, ⟨44, _⟩ => ⟨S1x16, .f32⟩
  | .hbm, ⟨45, _⟩ => ⟨S16384x16, .f32⟩
  | .hbm, ⟨46, _⟩ => ⟨S16384x16, .f32⟩
  | _, _ => ⟨S16384x544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_cst : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call2_cst : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  slices_S16384x544_S16384x16_0_0 : S16384x544.Slices ![0, 0] S16384x16
  slices_S16384x544_S16384x16_0_16 : S16384x544.Slices ![0, 16] S16384x16
  slices_S16384x544_S16384x512_0_32 : S16384x544.Slices ![0, 32] S16384x512
  shapeCasts_S16384x512_S16384x32x16 : S16384x512.ShapeCasts S16384x32x16
  bcast_S128_S1x1x128_2 : S128.BroadcastsInDim S1x1x128 (![2] : Fin 1 → Fin S1x1x128.rank)
  bcast_S1x1x128_S16384x32x128_0_1_2 : S1x1x128.BroadcastsInDim S16384x32x128 (![0, 1, 2] : Fin 3 → Fin S16384x32x128.rank)
  bcast_S_S16384x32x128 : S_.BroadcastsInDim S16384x32x128 (![] : Fin 0 → Fin S16384x32x128.rank)
  bcast_S64_S1x1x64_2 : S64.BroadcastsInDim S1x1x64 (![2] : Fin 1 → Fin S1x1x64.rank)
  bcast_S1x1x64_S16384x32x64_0_1_2 : S1x1x64.BroadcastsInDim S16384x32x64 (![0, 1, 2] : Fin 3 → Fin S16384x32x64.rank)
  reducesTo_S16384x32x64_S16384x64_d1 : S16384x32x64.ReducesTo [1] S16384x64
  h_S_ : 0 < S_.numel
  concatenates_S16384x16_S16384x16_S16384x64_S16384x96_d1 : Shape.Concatenates [S16384x16, S16384x16, S16384x64] S16384x96 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x32x16_S16x128_S16384x32x128_2_0_01_1_n_n_wf : DotDims.WF S16384x32x16 S16x128 S16384x32x128 [2] [0] [0, 1] [1] [] []
  dot_S16384x32x128_S128x128_S16384x32x128_2_0_01_1_n_n_wf : DotDims.WF S16384x32x128 S128x128 S16384x32x128 [2] [0] [0, 1] [1] [] []
  dot_S16384x32x128_S128x64_S16384x32x64_2_0_01_1_n_n_wf : DotDims.WF S16384x32x128 S128x64 S16384x32x64 [2] [0] [0, 1] [1] [] []
  dot_S16384x96_S96x256_S16384x256_1_0_0_1_n_n_wf : DotDims.WF S16384x96 S96x256 S16384x256 [1] [0] [0] [1] [] []
  dot_S16384x256_S256x16_S16384x16_1_0_0_1_n_n_wf : DotDims.WF S16384x256 S256x16 S16384x16 [1] [0] [0] [1] [] []

variable [Facts₀]

def dot_S16384x32x16_S16x128_S16384x32x128_2_0_01_1_n_n : DotDims S16384x32x16 S16x128 S16384x32x128 where
  lhsContracting := [2]
  rhsContracting := [0]
  lhsNonContracting := [0, 1]
  rhsNonContracting := [1]
  lhsBatch := []
  rhsBatch := []
  wf := dot_S16384x32x16_S16x128_S16384x32x128_2_0_01_1_n_n_wf
def dot_S16384x32x128_S128x128_S16384x32x128_2_0_01_1_n_n : DotDims S16384x32x128 S128x128 S16384x32x128 where
  lhsContracting := [2]
  rhsContracting := [0]
  lhsNonContracting := [0, 1]
  rhsNonContracting := [1]
  lhsBatch := []
  rhsBatch := []
  wf := dot_S16384x32x128_S128x128_S16384x32x128_2_0_01_1_n_n_wf
def dot_S16384x32x128_S128x64_S16384x32x64_2_0_01_1_n_n : DotDims S16384x32x128 S128x64 S16384x32x64 where
  lhsContracting := [2]
  rhsContracting := [0]
  lhsNonContracting := [0, 1]
  rhsNonContracting := [1]
  lhsBatch := []
  rhsBatch := []
  wf := dot_S16384x32x128_S128x64_S16384x32x64_2_0_01_1_n_n_wf
def dot_S16384x96_S96x256_S16384x256_1_0_0_1_n_n : DotDims S16384x96 S96x256 S16384x256 where
  lhsContracting := [1]
  rhsContracting := [0]
  lhsNonContracting := [0]
  rhsNonContracting := [1]
  lhsBatch := []
  rhsBatch := []
  wf := dot_S16384x96_S96x256_S16384x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf

class Facts : Prop extends Facts₀ where

variable [Facts]
-- ==== Proof.LibERealFinite.lean ====
/-
  Finiteness in the extended reals: an extended real is finite when it is neither infinity, that is, when it is
  the image of a real number.  Closure of finiteness under the arithmetic, order and rounding operations, and the
  identities that hold once one operand is known to be finite.
-/
import Mathlib.Tactic
import Idealize.ShloMosaic.PureOps.Ideal

noncomputable section

namespace Cert.Lib.Finite

open Idealize.ShloMosaic

/-- An extended real is finite when it is neither `⊤` nor `⊥`. -/
def Fin' (x : EReal) : Prop := x ≠ ⊤ ∧ x ≠ ⊥

/-- A finite extended real is the image of a real number. -/
theorem Fin'.exists_real {x : EReal} (h : Fin' x) : ∃ r : ℝ, x = (r : EReal) :=
  ⟨x.toReal, (EReal.coe_toReal h.1 h.2).symm⟩

/-- The image of a real number is finite. -/
theorem fin_coe (r : ℝ) : Fin' (r : EReal) := ⟨EReal.coe_ne_top r, EReal.coe_ne_bot r⟩

/-- Finite means: the image of a real number. -/
theorem fin_iff_exists_real {x : EReal} : Fin' x ↔ ∃ r : ℝ, x = (r : EReal) :=
  ⟨Fin'.exists_real, fun ⟨r, h⟩ => h ▸ fin_coe r⟩

/-- Of a real witness, finiteness. -/
theorem fin_of_eq_coe {x : EReal} {r : ℝ} (h : x = (r : EReal)) : Fin' x := h ▸ fin_coe r

theorem fin_zero : Fin' (0 : EReal) := by simpa using fin_coe 0
theorem fin_one : Fin' (1 : EReal) := by simpa using fin_coe 1

/-- The straight-through identity: adding to a finite `a` the difference `b - a` gives `b`, for every extended
    real `b`, the infinities included (`a + (⊤ - a) = ⊤`, `a + (⊥ - a) = ⊥`). -/
theorem add_sub_cancel {a : EReal} (ha : Fin' a) (b : EReal) : a + (b - a) = b := by
  obtain ⟨r, rfl⟩ := ha.exists_real
  induction b using EReal.rec with
  | bot => simp
  | top => simp
  | coe x => norm_cast; ring

/-- The same identity with the difference first. -/
theorem sub_add_cancel {a : EReal} (ha : Fin' a) (b : EReal) : (b - a) + a = b := by
  rw [add_comm]; exact add_sub_cancel ha b

/-! ### Closure -/

theorem fin_add {a b : EReal} (ha : Fin' a) (hb : Fin' b) : Fin' (a + b) := by
  obtain ⟨r, rfl⟩ := ha.exists_real; obtain ⟨t, rfl⟩ := hb.exists_real
  exact fin_of_eq_coe (EReal.coe_add r t).symm

theorem fin_sub {a b : EReal} (ha : Fin' a) (hb : Fin' b) : Fin' (a - b) := by
  obtain ⟨r, rfl⟩ := ha.exists_real; obtain ⟨t, rfl⟩ := hb.exists_real
  exact fin_of_eq_coe (EReal.coe_sub r t).symm

theorem fin_mul {a b : EReal} (ha : Fin' a) (hb : Fin' b) : Fin' (a * b) := by
  obtain ⟨r, rfl⟩ := ha.exists_real; obtain ⟨t, rfl⟩ := hb.exists_real
  exact fin_of_eq_coe (EReal.coe_mul r t).symm

theorem fin_neg {a : EReal} (ha : Fin' a) : Fin' (-a) := by
  obtain ⟨r, rfl⟩ := ha.exists_real
  exact fin_of_eq_coe (EReal.coe_neg r).symm

theorem fin_max {a b : EReal} (ha : Fin' a) (hb : Fin' b) : Fin' (max a b) := by
  rcases max_choice a b with h | h <;> rw [h] <;> assumption

theorem fin_min {a b : EReal} (ha : Fin' a) (hb : Fin' b) : Fin' (min a b) := by
  rcases min_choice a b with h | h <;> rw [h] <;> assumption

/-- Between two finite bounds, finite. -/
theorem fin_of_between {lo hi x : EReal} (hlo : Fin' lo) (hhi : Fin' hi) (h1 : lo ≤ x) (h2 : x ≤ hi) : Fin' x :=
  ⟨fun h => hhi.1 (top_le_iff.mp (h ▸ h2)), fun h => hlo.2 (le_bot_iff.mp (h ▸ h1))⟩

/-- A finite sum of finite terms is finite. -/
theorem fin_sum {ι : Type*} (s : Finset ι) (f : ι → EReal) (h : ∀ i ∈ s, Fin' (f i)) : Fin' (∑ i ∈ s, f i) := by
  classical
  induction s using Finset.induction_on with
  | empty => simpa using fin_zero
  | insert a s ha ih =>
    rw [Finset.sum_insert ha]
    exact fin_add (h a (Finset.mem_insert_self a s)) (ih fun i hi => h i (Finset.mem_insert_of_mem hi))

/-- The sum over a finite type of finite terms is finite. -/
theorem fin_sum_univ {ι : Type*} [Fintype ι] (f : ι → EReal) (h : ∀ i, Fin' (f i)) : Fin' (∑ i, f i) :=
  fin_sum Finset.univ f fun i _ => h i

/-- The sum of the images of reals is the image of the sum. -/
theorem coe_sum {ι : Type*} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The exponential of a finite extended real is finite. -/
theorem fin_exp {x : EReal} (hx : Fin' x) : Fin' (Ideal.exp x) := by
  obtain ⟨r, rfl⟩ := hx.exists_real
  exact fin_of_eq_coe (Ideal.exp_coe (r := r))

/-- The exponential of a finite extended real is positive. -/
theorem exp_pos {x : EReal} (hx : Fin' x) : 0 < Ideal.exp x := by
  obtain ⟨r, rfl⟩ := hx.exists_real
  rw [Ideal.exp_coe]; exact_mod_cast Real.exp_pos r

/-- The quotient of two reals, the divisor not zero, is the image of the real quotient. -/
theorem div_coe_coe (r : ℝ) {t : ℝ} (ht : t ≠ 0) : Ideal.div (r : EReal) (t : EReal) = ((r / t : ℝ) : EReal) := by
  rw [Ideal.div_coe ht, ← EReal.coe_mul, mul_one_div]

/-- The quotient of a finite extended real by a finite nonzero one is finite. -/
theorem fin_div {x s : EReal} (hx : Fin' x) (hs : Fin' s) (h0 : s ≠ 0) : Fin' (Ideal.div x s) := by
  obtain ⟨r, rfl⟩ := hx.exists_real; obtain ⟨t, rfl⟩ := hs.exists_real
  have ht : t ≠ 0 := fun h => h0 (by rw [h]; rfl)
  exact fin_of_eq_coe (div_coe_coe r ht)

/-- A rounding to the integers of a finite extended real is finite. -/
theorem fin_liftRound (f : ℝ → ℤ) {x : EReal} (hx : Fin' x) : Fin' (Ideal.liftRound f x) := by
  obtain ⟨r, rfl⟩ := hx.exists_real
  exact fin_of_eq_coe (Ideal.liftRound_coe (r := r) f)

/-! ### The clip bounds -/

/-- The pattern `0x42FE0000` denotes the real `127`. -/
theorem ofBits_127 : Ideal.ofBits .f32 0x42FE0000#32 = ((127 : ℝ) : EReal) := by
  simp [Ideal.ofBits, Ideal.ieee, -EReal.coe_mul]; norm_num

/-- The pattern `0xC2FE0000` denotes the real `-127`. -/
theorem ofBits_neg127 : Ideal.ofBits .f32 0xC2FE0000#32 = ((-127 : ℝ) : EReal) := by
  simp [Ideal.ofBits, Ideal.ieee, -EReal.coe_mul]; norm_num

/-- A value clipped to `[-127, 127]` is finite, whatever it was. -/
theorem fin_clip (y : EReal) :
    Fin' (min (Ideal.ofBits .f32 0x42FE0000#32) (max (Ideal.ofBits .f32 0xC2FE0000#32) y)) := by
  rw [ofBits_127, ofBits_neg127]
  refine fin_of_between (fin_coe (-127)) (fin_coe 127) (le_min ?_ (le_max_left _ _)) (min_le_left _ _)
  exact_mod_cast (by norm_num : (-127 : ℝ) ≤ 127)

/-! ### The quantization scale -/

/-- The pattern `0x322BCC77` denotes a positive real (`11258999 · 2⁻⁵⁰`, about `1e-8`). -/
theorem ofBits_eps : Ideal.ofBits .f32 0x322BCC77#32 = ((11258999 / 2 ^ 50 : ℝ) : EReal) := by
  simp [Ideal.ofBits, Ideal.ieee, -EReal.coe_mul]; norm_num

/-- That real is positive. -/
theorem ofBits_eps_pos : (0 : EReal) < Ideal.ofBits .f32 0x322BCC77#32 := by
  rw [ofBits_eps]; exact_mod_cast (by positivity : (0 : ℝ) < 11258999 / 2 ^ 50)

/-- The scale `max (M / 127) ε` of a finite `M` is finite. -/
theorem fin_scale {M : EReal} (hM : Fin' M) :
    Fin' (max (Ideal.div M (Ideal.ofBits .f32 0x42FE0000#32)) (Ideal.ofBits .f32 0x322BCC77#32)) := by
  refine fin_max (fin_div hM (fin_of_eq_coe ofBits_127) ?_) (fin_of_eq_coe ofBits_eps)
  rw [ofBits_127]; exact_mod_cast (by norm_num : (127 : ℝ) ≠ 0)

/-- The scale `max (M / 127) ε` is positive, whatever `M` is. -/
theorem scale_pos (M : EReal) :
    0 < max (Ideal.div M (Ideal.ofBits .f32 0x42FE0000#32)) (Ideal.ofBits .f32 0x322BCC77#32) :=
  lt_max_of_lt_right ofBits_eps_pos

/-- A positive extended real is not zero. -/
theorem scale_ne_zero (M : EReal) :
    max (Ideal.div M (Ideal.ofBits .f32 0x42FE0000#32)) (Ideal.ofBits .f32 0x322BCC77#32) ≠ 0 :=
  (scale_pos M).ne'

/-! ### Folding the maximum over a finite set -/

/-- Folding `max` from `⊥` is the supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-- Every entry is below the folded maximum. -/
theorem le_fold_max {ι : Type*} {s : Finset ι} (f : ι → EReal) {i : ι} (hi : i ∈ s) : f i ≤ s.fold max ⊥ f := by
  rw [fold_max_eq_sup]; exact Finset.le_sup hi

/-- A bound of every entry bounds the folded maximum. -/
theorem fold_max_le {ι : Type*} {s : Finset ι} {f : ι → EReal} {c : EReal} (h : ∀ i ∈ s, f i ≤ c) :
    s.fold max ⊥ f ≤ c := by
  rw [fold_max_eq_sup]; exact Finset.sup_le h

/-- A bound of every entry that one entry attains is the folded maximum. -/
theorem fold_max_eq_of_le_of_mem {ι : Type*} {s : Finset ι} {f : ι → EReal} {c : EReal} (h : ∀ i ∈ s, f i ≤ c)
    {i : ι} (hi : i ∈ s) (hc : f i = c) : s.fold max ⊥ f = c :=
  le_antisymm (fold_max_le h) (hc ▸ le_fold_max f hi)

/-- Over a nonempty finite set the folded maximum is one of the entries. -/
theorem exists_fold_max_eq {ι : Type*} {s : Finset ι} (hs : s.Nonempty) (f : ι → EReal) :
    ∃ i ∈ s, s.fold max ⊥ f = f i := by
  rw [fold_max_eq_sup]; exact Finset.exists_mem_eq_sup s hs f

/-- Over a nonempty finite type the folded maximum of finite entries is finite. -/
theorem fin_fold_max {ι : Type*} [Fintype ι] [Nonempty ι] (f : ι → EReal) (h : ∀ i, Fin' (f i)) :
    Fin' (Finset.univ.fold max ⊥ f) := by
  obtain ⟨i, -, hi⟩ := exists_fold_max_eq Finset.univ_nonempty f
  rw [hi]; exact h i

/-- The folded maximum of the images of reals is the image of their supremum. -/
theorem fold_max_coe {ι : Type*} {s : Finset ι} (hs : s.Nonempty) (g : ι → ℝ) :
    s.fold max ⊥ (fun i => (g i : EReal)) = ((s.sup' hs g : ℝ) : EReal) := by
  obtain ⟨i, hi, h⟩ := Finset.exists_mem_eq_sup' hs g
  refine fold_max_eq_of_le_of_mem (fun j hj => ?_) hi (by rw [h])
  exact_mod_cast Finset.le_sup' g hj

/-- Re-indexing along a bijection does not change the folded maximum. -/
theorem fold_max_equiv {ι κ : Type*} [Fintype ι] [Fintype κ] (e : ι ≃ κ) (b : EReal) (f : κ → EReal) :
    Finset.univ.fold max b (f ∘ e) = Finset.univ.fold max b f := by
  have h := Finset.fold_map (op := max) (b := b) (g := e.toEmbedding) (f := f) (s := Finset.univ)
  rw [Finset.map_univ_equiv] at h
  exact h.symm

end Cert.Lib.Finite

end
-- ==== Proof.Pooling.lean ====
/-
  The network one row of the input goes through, on the extended reals, and the one law that joins its two
  arrangements.

  A row has 544 entries: two blocks of 16 that are passed on unchanged, and 32 neighbours of 16 features each.
  Every neighbour goes through two dense layers with a rectifier (16 → 128 → 128); a third, linear layer
  (128 → 64) and a sum over the 32 neighbours give a summary of 64 entries; the two passed-on blocks and the
  summary, joined to 96 entries, go through a dense layer with a rectifier (96 → 256) and a linear layer
  (256 → 16).

  The summary can be taken in two orders.  Applying the third layer to each neighbour and then summing gives
  `∑ n, (∑ k, h n k * w k d + β d)`; summing the neighbours first and applying the layer once gives
  `∑ k, (∑ n, h n k) * w k d + 32 * β d`.  Over the reals these agree, by distributivity and by exchanging the
  two sums; on the extended reals distributivity fails at the infinities, so the law is stated for finite
  entries, and finiteness of the hidden values is derived from finiteness of the row and of the weights.
-/
import Mathlib.Tactic
import Idealize.ShloMosaic.PureOps.Ideal
import proofs.«158168_j89816356094668_2_alg».proof.Proof.LibERealFinite

noncomputable section

namespace Cert.SetNet

open Cert.Lib.Finite

variable (row : Fin 544 → EReal)
variable (w0 : Fin 16 → Fin 128 → EReal) (b0 : Fin 128 → EReal)
variable (w1 : Fin 128 → Fin 128 → EReal) (b1 : Fin 128 → EReal)
variable (w2 : Fin 128 → Fin 64 → EReal) (b2 : Fin 64 → EReal)
variable (r0 : Fin 96 → Fin 256 → EReal) (c0 : Fin 256 → EReal)
variable (r1 : Fin 256 → Fin 16 → EReal) (c1 : Fin 16 → EReal)

/-- Feature `s` of neighbour `n`: entry `32 + 16 n + s` of the row. -/
def nbr (n : Fin 32) (s : Fin 16) : EReal := row ⟨32 + (16 * n.val + s.val), by omega⟩

/-- The first hidden layer of neighbour `n`. -/
def hid0 (n : Fin 32) (h : Fin 128) : EReal := max (∑ s : Fin 16, nbr row n s * w0 s h + b0 h) 0

/-- The second hidden layer of neighbour `n`. -/
def hid1 (n : Fin 32) (k : Fin 128) : EReal := max (∑ h : Fin 128, hid0 row w0 b0 n h * w1 h k + b1 k) 0

/-- The summary, the third layer applied to every neighbour and the results summed. -/
def poolAfter (d : Fin 64) : EReal :=
  ∑ n : Fin 32, (∑ k : Fin 128, hid1 row w0 b0 w1 b1 n k * w2 k d + b2 d)

/-- The summary, the neighbours summed first and the third layer applied once, its bias taken 32 times. -/
def poolBefore (d : Fin 64) : EReal :=
  ∑ k : Fin 128, (∑ n : Fin 32, hid1 row w0 b0 w1 b1 n k) * w2 k d + ((32 : ℝ) : EReal) * b2 d

/-- The two passed-on blocks (entries 0 to 31 of the row) followed by a summary `σ`. -/
def joined (σ : Fin 64 → EReal) (c : Fin 96) : EReal :=
  if h : c.val < 32 then row ⟨c.val, by omega⟩ else σ ⟨c.val - 32, by omega⟩

/-- The last two layers, of 96 joined entries. -/
def head (z : Fin 96 → EReal) (a : Fin 16) : EReal :=
  ∑ j : Fin 256, max (∑ c : Fin 96, z c * r0 c j + c0 j) 0 * r1 j a + c1 a

/-! ## Finiteness of the hidden values -/

theorem fin_nbr (hrow : ∀ c, Fin' (row c)) (n : Fin 32) (s : Fin 16) : Fin' (nbr row n s) := hrow _

theorem fin_hid0 (hrow : ∀ c, Fin' (row c)) (hw0 : ∀ s h, Fin' (w0 s h)) (hb0 : ∀ h, Fin' (b0 h))
    (n : Fin 32) (h : Fin 128) : Fin' (hid0 row w0 b0 n h) :=
  fin_max (fin_add (fin_sum_univ _ fun s => fin_mul (fin_nbr row hrow n s) (hw0 s h)) (hb0 h)) fin_zero

theorem fin_hid1 (hrow : ∀ c, Fin' (row c)) (hw0 : ∀ s h, Fin' (w0 s h)) (hb0 : ∀ h, Fin' (b0 h))
    (hw1 : ∀ h k, Fin' (w1 h k)) (hb1 : ∀ k, Fin' (b1 k)) (n : Fin 32) (k : Fin 128) :
    Fin' (hid1 row w0 b0 w1 b1 n k) :=
  fin_max (fin_add (fin_sum_univ _ fun h => fin_mul (fin_hid0 row w0 b0 hrow hw0 hb0 n h) (hw1 h k)) (hb1 k)) fin_zero

/-! ## The law -/

/-- A linear layer commutes with a sum of finitely many finite vectors: summing first and applying the layer
    once, the bias counted once per summand, is applying it to each summand and summing. -/
theorem sum_then_layer (a : Fin 32 → Fin 128 → EReal) (w : Fin 128 → EReal) (β : EReal)
    (ha : ∀ n k, Fin' (a n k)) (hw : ∀ k, Fin' (w k)) (hβ : Fin' β) :
    ∑ k : Fin 128, (∑ n : Fin 32, a n k) * w k + ((32 : ℝ) : EReal) * β
      = ∑ n : Fin 32, (∑ k : Fin 128, a n k * w k + β) := by
  obtain ⟨a', rfl⟩ : ∃ a' : Fin 32 → Fin 128 → ℝ, a = fun n k => ((a' n k : ℝ) : EReal) :=
    ⟨fun n k => (a n k).toReal, by funext n k; exact (EReal.coe_toReal (ha n k).1 (ha n k).2).symm⟩
  obtain ⟨w', rfl⟩ : ∃ w' : Fin 128 → ℝ, w = fun k => ((w' k : ℝ) : EReal) :=
    ⟨fun k => (w k).toReal, by funext k; exact (EReal.coe_toReal (hw k).1 (hw k).2).symm⟩
  obtain ⟨β', rfl⟩ := hβ.exists_real
  simp only [coe_sum, ← EReal.coe_mul, ← EReal.coe_add]
  refine congrArg _ ?_
  simp only [Finset.sum_mul, Finset.sum_add_distrib, Finset.sum_const, Finset.card_univ, Fintype.card_fin,
    nsmul_eq_mul]
  rw [Finset.sum_comm]
  norm_num

/-- The two summaries agree on a finite row and finite weights. -/
theorem poolBefore_eq_poolAfter (hrow : ∀ c, Fin' (row c)) (hw0 : ∀ s h, Fin' (w0 s h)) (hb0 : ∀ h, Fin' (b0 h))
    (hw1 : ∀ h k, Fin' (w1 h k)) (hb1 : ∀ k, Fin' (b1 k)) (hw2 : ∀ k d, Fin' (w2 k d)) (hb2 : ∀ d, Fin' (b2 d))
    (d : Fin 64) :
    poolBefore row w0 b0 w1 b1 w2 b2 d = poolAfter row w0 b0 w1 b1 w2 b2 d :=
  sum_then_layer (fun n k => hid1 row w0 b0 w1 b1 n k) (fun k => w2 k d) (b2 d)
    (fun n k => fin_hid1 row w0 b0 w1 b1 hrow hw0 hb0 hw1 hb1 n k) (fun k => hw2 k d) (hb2 d)

/-- The pattern `0x42000000` denotes the real `32`. -/
theorem ofBits_32 : Idealize.ShloMosaic.Ideal.ofBits .f32 0x42000000#32 = ((32 : ℝ) : EReal) := by
  simp [Idealize.ShloMosaic.Ideal.ofBits, Idealize.ShloMosaic.Ideal.ieee, -EReal.coe_mul]; norm_num

end Cert.SetNet

end
-- ==== Proof.Coords.lean ====
/-
  Arrays as functions of their coordinates: a matrix as a function of a row and a column, a vector as a function
  of its one coordinate, and one row of a matrix.
-/
import Idealize.ShloMosaic.Lib.ValueIdx

noncomputable section

namespace Cert.SetNet

open Idealize.ShloMosaic Idealize.ShloMosaic.ValueIdx

/-- A matrix as a function of its row and column. -/
abbrev mat {a b : Nat} (x : (⟨2, ![a, b]⟩ : Shape).Idx → EReal) : Fin a → Fin b → EReal := fun p q => x (ix2 p q)

/-- A vector as a function of its coordinate. -/
abbrev vec {a : Nat} (x : (⟨1, ![a]⟩ : Shape).Idx → EReal) : Fin a → EReal := fun p => x (ix1 p)

/-- The one row of a matrix with a single row, as a function of the column. -/
abbrev row1 {b : Nat} (x : (⟨2, ![1, b]⟩ : Shape).Idx → EReal) : Fin b → EReal := fun q => x (ix2 (0 : Fin 1) q)

/-- Row `p` of a matrix. -/
abbrev rowOf {a b : Nat} (x : (⟨2, ![a, b]⟩ : Shape).Idx → EReal) (p : Fin a) : Fin b → EReal := fun q => x (ix2 p q)

end Cert.SetNet

end
-- ==== Proof.RefRow.lean ====
/-
  The reference, read row by row: at row `b` and output column `a` its result is the network of Pooling.lean
  applied to row `b` of the input, the summary taken by applying the third layer to every neighbour and then
  summing.  Each lemma reads one stage of the reference at explicit coordinates.
-/
import proofs.«158168_j89816356094668_2_alg».proof.Proof.Gen.ReferenceIdeal.Read
import proofs.«158168_j89816356094668_2_alg».proof.Proof.Pooling
import proofs.«158168_j89816356094668_2_alg».proof.Proof.Coords
import Idealize.ShloMosaic.Lib.ValueIdx
import Idealize.ShloMosaic.Lib.Pipeline.Value
import Idealize.ShloMosaic.PureOps.Ideal.Laws

noncomputable section

namespace Cert.SetNet.Ref

open Cert.ReferenceIdeal Cert.ReferenceIdeal.Read Idealize.ShloMosaic Idealize.ShloMosaic.ValueIdx Cert.SetNet

variable (x0 : FVec Ideal S16384x544 .f32) (x1 : FVec Ideal S16x128 .f32) (x2 : FVec Ideal S128 .f32)
variable (x3 : FVec Ideal S128x128 .f32) (x4 : FVec Ideal S128 .f32) (x5 : FVec Ideal S128x64 .f32)
variable (x6 : FVec Ideal S64 .f32) (x7 : FVec Ideal S96x256 .f32) (x8 : FVec Ideal S256 .f32)
variable (x9 : FVec Ideal S256x16 .f32) (x10 : FVec Ideal S16 .f32)

/-- The neighbours' features: the row's entries from 32 on, sixteen to a neighbour. -/
theorem v3_at (b : Fin 16384) (n : Fin 32) (s : Fin 16) :
    val_main_v3 (F := Ideal) x0 (ix3 b n s) = nbr (rowOf x0 b) n s := by
  rw [val_main_v3_apply, val_main_v2_apply]
  unfold nbr
  refine congrArg x0 (funext fun a => Fin.ext ?_)
  have hb := b.isLt; have hn := n.isLt; have hs := s.isLt
  match a with
  | ⟨0, _⟩ => show ((b.val * 32 + n.val) * 16 + s.val) / 512 = b.val; omega
  | ⟨1, _⟩ => show 32 + ((b.val * 32 + n.val) * 16 + s.val) % 512 = 32 + (16 * n.val + s.val); omega

/-- The first hidden layer. -/
theorem v8_at (b : Fin 16384) (n : Fin 32) (h : Fin 128) :
    val_main_v8 (F := Ideal) x0 x1 x2 (ix3 b n h) = hid0 (rowOf x0 b) (mat x1) (vec x2) n h := by
  rw [val_main_v8_apply, val_main_v7_apply, val_main_v4_apply, val_main_v6_apply, val_main_v5_apply,
    val_main_call0_v0_apply, val_main_call0_cst_apply]
  unfold hid0
  simp only [Ideal.maximumf_def, Ideal.addf_def, Ideal.ofBits_def, Ideal.ofBits_zero_f32]
  refine congrArg (max · 0) (congrArg₂ (· + ·) (Finset.sum_congr rfl fun k _ => ?_) ?_)
  · have el : lidx_main_v4 (ix3 b n h) k = ix3 b n k :=
      funext fun a => Fin.ext (by match a with | ⟨0, _⟩ => rfl | ⟨1, _⟩ => rfl | ⟨2, _⟩ => rfl)
    have er : ridx_main_v4 (ix3 b n h) k = ix2 k h :=
      funext fun a => Fin.ext (by match a with | ⟨0, _⟩ => rfl | ⟨1, _⟩ => rfl)
    rw [el, er, v3_at]
  · exact congrArg x2 (funext fun a => Fin.ext (by match a with | ⟨0, _⟩ => rfl))

/-- The second hidden layer. -/
theorem v13_at (b : Fin 16384) (n : Fin 32) (k : Fin 128) :
    val_main_v13 (F := Ideal) x0 x1 x2 x3 x4 (ix3 b n k)
      = hid1 (rowOf x0 b) (mat x1) (vec x2) (mat x3) (vec x4) n k := by
  rw [val_main_v13_apply, val_main_v12_apply, val_main_v9_apply, val_main_v11_apply, val_main_v10_apply,
    val_main_call1_v0_apply, val_main_call1_cst_apply]
  unfold hid1
  simp only [Ideal.maximumf_def, Ideal.addf_def, Ideal.ofBits_def, Ideal.ofBits_zero_f32]
  refine congrArg (max · 0) (congrArg₂ (· + ·) (Finset.sum_congr rfl fun h _ => ?_) ?_)
  · have el : lidx_main_v9 (ix3 b n k) h = ix3 b n h :=
      funext fun a => Fin.ext (by match a with | ⟨0, _⟩ => rfl | ⟨1, _⟩ => rfl | ⟨2, _⟩ => rfl)
    have er : ridx_main_v9 (ix3 b n k) h = ix2 h k :=
      funext fun a => Fin.ext (by match a with | ⟨0, _⟩ => rfl | ⟨1, _⟩ => rfl)
    rw [el, er, v8_at]
  · exact congrArg x4 (funext fun a => Fin.ext (by match a with | ⟨0, _⟩ => rfl))

/-- The third layer applied to one neighbour. -/
theorem v17_at (b : Fin 16384) (n : Fin 32) (d : Fin 64) :
    val_main_v17 (F := Ideal) x0 x1 x2 x3 x4 x5 x6 (ix3 b n d)
      = ∑ k : Fin 128, hid1 (rowOf x0 b) (mat x1) (vec x2) (mat x3) (vec x4) n k * mat x5 k d + vec x6 d := by
  rw [val_main_v17_apply, val_main_v14_apply, val_main_v16_apply, val_main_v15_apply]
  simp only [Ideal.addf_def]
  refine congrArg₂ (· + ·) (Finset.sum_congr rfl fun k _ => ?_) ?_
  · have el : lidx_main_v14 (ix3 b n d) k = ix3 b n k :=
      funext fun a => Fin.ext (by match a with | ⟨0, _⟩ => rfl | ⟨1, _⟩ => rfl | ⟨2, _⟩ => rfl)
    have er : ridx_main_v14 (ix3 b n d) k = ix2 k d :=
      funext fun a => Fin.ext (by match a with | ⟨0, _⟩ => rfl | ⟨1, _⟩ => rfl)
    rw [el, er, v13_at]
  · exact congrArg x6 (funext fun a => Fin.ext (by match a with | ⟨0, _⟩ => rfl))

/-- The summary: the third layer's results summed over the neighbours. -/
theorem v18_at (b : Fin 16384) (d : Fin 64) :
    val_main_v18 (F := Ideal) x0 x1 x2 x3 x4 x5 x6 (ix2 b d)
      = poolAfter (rowOf x0 b) (mat x1) (vec x2) (mat x3) (vec x4) (mat x5) (vec x6) d := by
  rw [val_main_v18_apply, val_main_cst_apply]
  unfold poolAfter
  simp only [Ideal.ofBits_def, Ideal.ofBits_zero_f32, zero_add]
  refine Finset.sum_congr rfl fun n _ => ?_
  have e : idx_main_v18 (ix2 b d) n = ix3 b n d :=
    funext fun a => Fin.ext (by match a with | ⟨0, _⟩ => rfl | ⟨1, _⟩ => rfl | ⟨2, _⟩ => rfl)
  rw [e, v17_at]

/-- The joined 96 entries: the row's first 32 entries, then the summary. -/
theorem v19_at (b : Fin 16384) (c : Fin 96) :
    val_main_v19 (F := Ideal) x0 x1 x2 x3 x4 x5 x6 (ix2 b c)
      = joined (rowOf x0 b) (poolAfter (rowOf x0 b) (mat x1) (vec x2) (mat x3) (vec x4) (mat x5) (vec x6)) c := by
  unfold val_main_v19 joined
  have hc := c.isLt
  by_cases h1 : c.val < 16
  · rw [dif_pos (show c.val < 32 by omega)]
    refine (concatenate_apply_piece (t := S16384x96) 1 _ _ (ix2 b c)
      0 (by show (0 : ℕ) < 3; omega) S16384x16 (val_main_v0 (F := Ideal) x0) rfl rfl 0 rfl (ix2 b ⟨c.val, h1⟩)
      (fun a ha => by match a, ha with | ⟨0, _⟩, _ => rfl | ⟨1, _⟩, ha => exact absurd rfl ha)
      (by show 0 + c.val = c.val; omega)).trans ?_
    rw [val_main_v0_apply]
    exact congrArg x0 (funext fun a => Fin.ext (by match a with | ⟨0, _⟩ => rfl | ⟨1, _⟩ => rfl))
  · by_cases h2 : c.val < 32
    · rw [dif_pos h2]
      refine (concatenate_apply_piece (t := S16384x96) 1 _ _ (ix2 b c)
        1 (by show (1 : ℕ) < 3; omega) S16384x16 (val_main_v1 (F := Ideal) x0) rfl rfl 16 rfl (ix2 b ⟨c.val - 16, by omega⟩)
        (fun a ha => by match a, ha with | ⟨0, _⟩, _ => rfl | ⟨1, _⟩, ha => exact absurd rfl ha)
        (by show 16 + (c.val - 16) = c.val; omega)).trans ?_
      rw [val_main_v1_apply]
      refine congrArg x0 (funext fun a => Fin.ext ?_)
      match a with
      | ⟨0, _⟩ => rfl
      | ⟨1, _⟩ => show 16 + (c.val - 16) = c.val; omega
    · rw [dif_neg h2]
      refine (concatenate_apply_piece (t := S16384x96) 1 _ _ (ix2 b c)
        2 (by show (2 : ℕ) < 3; omega) S16384x64 (val_main_v18 (F := Ideal) x0 x1 x2 x3 x4 x5 x6) rfl rfl 32 rfl (ix2 b ⟨c.val - 32, by omega⟩)
        (fun a ha => by match a, ha with | ⟨0, _⟩, _ => rfl | ⟨1, _⟩, ha => exact absurd rfl ha)
        (by show 32 + (c.val - 32) = c.val; omega)).trans ?_
      exact v18_at x0 x1 x2 x3 x4 x5 x6 b ⟨c.val - 32, by omega⟩

/-- The rectified layer on the joined entries. -/
theorem v24_at (b : Fin 16384) (j : Fin 256) :
    val_main_v24 (F := Ideal) x0 x1 x2 x3 x4 x5 x6 x7 x8 (ix2 b j)
      = max (∑ c : Fin 96, joined (rowOf x0 b) (poolAfter (rowOf x0 b) (mat x1) (vec x2) (mat x3) (vec x4) (mat x5) (vec x6)) c
          * mat x7 c j + vec x8 j) 0 := by
  rw [val_main_v24_apply, val_main_v23_apply, val_main_v20_apply, val_main_v22_apply, val_main_v21_apply,
    val_main_call2_v0_apply, val_main_call2_cst_apply]
  simp only [Ideal.maximumf_def, Ideal.addf_def, Ideal.ofBits_def, Ideal.ofBits_zero_f32]
  refine congrArg (max · 0) (congrArg₂ (· + ·) (Finset.sum_congr rfl fun c _ => ?_) ?_)
  · have el : lidx_main_v20 (ix2 b j) c = ix2 b c :=
      funext fun a => Fin.ext (by match a with | ⟨0, _⟩ => rfl | ⟨1, _⟩ => rfl)
    have er : ridx_main_v20 (ix2 b j) c = ix2 c j :=
      funext fun a => Fin.ext (by match a with | ⟨0, _⟩ => rfl | ⟨1, _⟩ => rfl)
    rw [el, er, v19_at]
  · exact congrArg x8 (funext fun a => Fin.ext (by match a with | ⟨0, _⟩ => rfl))

/-- The reference's result at row `b`, column `a`: the network of that row, the summary taken after the third layer. -/
theorem v28_at (b : Fin 16384) (a : Fin 16) :
    val_main_v28 (F := Ideal) x0 x1 x2 x3 x4 x5 x6 x7 x8 x9 x10 (ix2 b a)
      = head (mat x7) (vec x8) (mat x9) (vec x10)
          (joined (rowOf x0 b) (poolAfter (rowOf x0 b) (mat x1) (vec x2) (mat x3) (vec x4) (mat x5) (vec x6))) a := by
  rw [val_main_v28_apply, val_main_v25_apply, val_main_v27_apply, val_main_v26_apply]
  unfold head
  simp only [Ideal.addf_def]
  refine congrArg₂ (· + ·) (Finset.sum_congr rfl fun j _ => ?_) ?_
  · have el : lidx_main_v25 (ix2 b a) j = ix2 b j :=
      funext fun d => Fin.ext (by match d with | ⟨0, _⟩ => rfl | ⟨1, _⟩ => rfl)
    have er : ridx_main_v25 (ix2 b a) j = ix2 j a :=
      funext fun d => Fin.ext (by match d with | ⟨0, _⟩ => rfl | ⟨1, _⟩ => rfl)
    rw [el, er, v24_at]
  · exact congrArg x10 (funext fun d => Fin.ext (by match d with | ⟨0, _⟩ => rfl))

end Cert.SetNet.Ref

end
-- ==== Proof.KerMatmul.lean ====
/-
  The kernel's five matrix products read at an index.  On the extended reals a product of two matrices
  accumulated into the zero matrix is, at row `p` and column `q`, the sum over the contracted coordinate `k` of
  the products of the entries `(p, k)` and `(k, q)`: no rounding and no order of accumulation is left in it.
-/
import proofs.«158168_j89816356094668_2_alg».proof.Proof.Gen.KernelIdeal
import Idealize.ShloMosaic.Lib.ValueIdx
import Idealize.ShloMosaic.PureOps.Ideal.Laws

noncomputable section

namespace Cert.SetNet.Ker

open Cert.KernelIdeal Idealize.ShloMosaic Idealize.ShloMosaic.ValueIdx

/-- The left operand's row coordinate is the result's row. -/
theorem lhs_row_16384_16_128 (i : S16384x128.Idx) (q : dot_S16384x16_S16x128_S16384x128_1_0_0_1_n_n.contr.Idx) : (dot_S16384x16_S16x128_S16384x128_1_0_0_1_n_n.lhsIdx i q 0).val = (i 0).val := by
  unfold DotDims.lhsIdx
  rw [dif_neg (show ¬(0 : Fin S16384x16.rank) ∈ dot_S16384x16_S16x128_S16384x128_1_0_0_1_n_n.lhsBatch by decide),
    dif_pos (show (0 : Fin S16384x16.rank) ∈ dot_S16384x16_S16x128_S16384x128_1_0_0_1_n_n.lhsNonContracting by decide)]
  rfl
/-- The right operand's column coordinate is the result's column. -/
theorem rhs_col_16384_16_128 (i : S16384x128.Idx) (q : dot_S16384x16_S16x128_S16384x128_1_0_0_1_n_n.contr.Idx) : (dot_S16384x16_S16x128_S16384x128_1_0_0_1_n_n.rhsIdx i q 1).val = (i 1).val := by
  unfold DotDims.rhsIdx
  rw [dif_neg (show ¬(1 : Fin S16x128.rank) ∈ dot_S16384x16_S16x128_S16384x128_1_0_0_1_n_n.rhsBatch by decide),
    dif_pos (show (1 : Fin S16x128.rank) ∈ dot_S16384x16_S16x128_S16384x128_1_0_0_1_n_n.rhsNonContracting by decide)]
  rfl
/-- The product of a [16384, 16] and a [16, 128] matrix accumulated into zero, at row `p` and column `q`: the sum
    over `k` of the products of entries `(p, k)` and `(k, q)`. -/
theorem matmul_16384_16_128 (l : FVec Ideal S16384x16 .bf16) (w : FVec Ideal S16x128 .bf16) (p : Fin 16384) (q : Fin 128) :
    matmul dot_S16384x16_S16x128_S16384x128_1_0_0_1_n_n none l w (constant S16384x128 .f32 0x00000000#32) (ix2 p q)
      = ∑ k : Fin 16, l (ix2 p k) * w (ix2 k q) := by
  simp only [matmul]
  rw [Ideal.matmul_constant_zero_apply, ← Equiv.sum_comp (ValueIdx.contrEquiv1 dot_S16384x16_S16x128_S16384x128_1_0_0_1_n_n 16 rfl rfl).symm]
  refine Finset.sum_congr rfl fun k _ => ?_
  have hk := ValueIdx.contrEquiv1_symm_val dot_S16384x16_S16x128_S16384x128_1_0_0_1_n_n 16 rfl rfl k
  have el : dot_S16384x16_S16x128_S16384x128_1_0_0_1_n_n.lhsIdx (ix2 p q) ((ValueIdx.contrEquiv1 dot_S16384x16_S16x128_S16384x128_1_0_0_1_n_n 16 rfl rfl).symm k) = ix2 p k :=
    funext fun a => Fin.ext (by
      match a with
      | ⟨0, _⟩ => exact lhs_row_16384_16_128 _ _
      | ⟨1, _⟩ => exact (dot_S16384x16_S16x128_S16384x128_1_0_0_1_n_n.lhsIdx_val_of_single rfl _ _).trans hk)
  have er : dot_S16384x16_S16x128_S16384x128_1_0_0_1_n_n.rhsIdx (ix2 p q) ((ValueIdx.contrEquiv1 dot_S16384x16_S16x128_S16384x128_1_0_0_1_n_n 16 rfl rfl).symm k) = ix2 k q :=
    funext fun a => Fin.ext (by
      match a with
      | ⟨0, _⟩ => exact (dot_S16384x16_S16x128_S16384x128_1_0_0_1_n_n.rhsIdx_val_of_single rfl _ _).trans hk
      | ⟨1, _⟩ => exact rhs_col_16384_16_128 _ _)
  rw [el, er]

/-- The left operand's row coordinate is the result's row. -/
theorem lhs_row_16384_128_128 (i : S16384x128.Idx) (q : dot_S16384x128_S128x128_S16384x128_1_0_0_1_n_n.contr.Idx) : (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl
/-- The right operand's column coordinate is the result's column. -/
theorem rhs_col_16384_128_128 (i : S16384x128.Idx) (q : dot_S16384x128_S128x128_S16384x128_1_0_0_1_n_n.contr.Idx) : (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl
/-- The product of a [16384, 128] and a [128, 128] matrix accumulated into zero, at row `p` and column `q`: the sum
    over `k` of the products of entries `(p, k)` and `(k, q)`. -/
theorem matmul_16384_128_128 (l : FVec Ideal S16384x128 .bf16) (w : FVec Ideal S128x128 .bf16) (p : Fin 16384) (q : Fin 128) :
    matmul dot_S16384x128_S128x128_S16384x128_1_0_0_1_n_n none l w (constant S16384x128 .f32 0x00000000#32) (ix2 p q)
      = ∑ k : Fin 128, l (ix2 p k) * w (ix2 k q) := by
  simp only [matmul]
  rw [Ideal.matmul_constant_zero_apply, ← Equiv.sum_comp (ValueIdx.contrEquiv1 dot_S16384x128_S128x128_S16384x128_1_0_0_1_n_n 128 rfl rfl).symm]
  refine Finset.sum_congr rfl fun k _ => ?_
  have hk := ValueIdx.contrEquiv1_symm_val dot_S16384x128_S128x128_S16384x128_1_0_0_1_n_n 128 rfl rfl k
  have el : dot_S16384x128_S128x128_S16384x128_1_0_0_1_n_n.lhsIdx (ix2 p q) ((ValueIdx.contrEquiv1 dot_S16384x128_S128x128_S16384x128_1_0_0_1_n_n 128 rfl rfl).symm k) = ix2 p k :=
    funext fun a => Fin.ext (by
      match a with
      | ⟨0, _⟩ => exact lhs_row_16384_128_128 _ _
      | ⟨1, _⟩ => exact (dot_S16384x128_S128x128_S16384x128_1_0_0_1_n_n.lhsIdx_val_of_single rfl _ _).trans hk)
  have er : dot_S16384x128_S128x128_S16384x128_1_0_0_1_n_n.rhsIdx (ix2 p q) ((ValueIdx.contrEquiv1 dot_S16384x128_S128x128_S16384x128_1_0_0_1_n_n 128 rfl rfl).symm k) = ix2 k q :=
    funext fun a => Fin.ext (by
      match a with
      | ⟨0, _⟩ => exact (dot_S16384x128_S128x128_S16384x128_1_0_0_1_n_n.rhsIdx_val_of_single rfl _ _).trans hk
      | ⟨1, _⟩ => exact rhs_col_16384_128_128 _ _)
  rw [el, er]

/-- The left operand's row coordinate is the result's row. -/
theorem lhs_row_512_128_64 (i : S512x64.Idx) (q : dot_S512x128_S128x64_S512x64_1_0_0_1_n_n.contr.Idx) : (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide),
    dif_pos (show (0 : Fin S512x128.rank) ∈ dot_S512x128_S128x64_S512x64_1_0_0_1_n_n.lhsNonContracting by decide)]
  rfl
/-- The right operand's column coordinate is the result's column. -/
theorem rhs_col_512_128_64 (i : S512x64.Idx) (q : dot_S512x128_S128x64_S512x64_1_0_0_1_n_n.contr.Idx) : (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide),
    dif_pos (show (1 : Fin S128x64.rank) ∈ dot_S512x128_S128x64_S512x64_1_0_0_1_n_n.rhsNonContracting by decide)]
  rfl
/-- The product of a [512, 128] and a [128, 64] matrix accumulated into zero, at row `p` and column `q`: the sum
    over `k` of the products of entries `(p, k)` and `(k, q)`. -/
theorem matmul_512_128_64 (l : FVec Ideal S512x128 .bf16) (w : FVec Ideal S128x64 .bf16) (p : Fin 512) (q : Fin 64) :
    matmul dot_S512x128_S128x64_S512x64_1_0_0_1_n_n none l w (constant S512x64 .f32 0x00000000#32) (ix2 p q)
      = ∑ k : Fin 128, l (ix2 p k) * w (ix2 k q) := by
  simp only [matmul]
  rw [Ideal.matmul_constant_zero_apply, ← Equiv.sum_comp (ValueIdx.contrEquiv1 dot_S512x128_S128x64_S512x64_1_0_0_1_n_n 128 rfl rfl).symm]
  refine Finset.sum_congr rfl fun k _ => ?_
  have hk := ValueIdx.contrEquiv1_symm_val dot_S512x128_S128x64_S512x64_1_0_0_1_n_n 128 rfl rfl k
  have el : dot_S512x128_S128x64_S512x64_1_0_0_1_n_n.lhsIdx (ix2 p q) ((ValueIdx.contrEquiv1 dot_S512x128_S128x64_S512x64_1_0_0_1_n_n 128 rfl rfl).symm k) = ix2 p k :=
    funext fun a => Fin.ext (by
      match a with
      | ⟨0, _⟩ => exact lhs_row_512_128_64 _ _
      | ⟨1, _⟩ => exact (dot_S512x128_S128x64_S512x64_1_0_0_1_n_n.lhsIdx_val_of_single rfl _ _).trans hk)
  have er : dot_S512x128_S128x64_S512x64_1_0_0_1_n_n.rhsIdx (ix2 p q) ((ValueIdx.contrEquiv1 dot_S512x128_S128x64_S512x64_1_0_0_1_n_n 128 rfl rfl).symm k) = ix2 k q :=
    funext fun a => Fin.ext (by
      match a with
      | ⟨0, _⟩ => exact (dot_S512x128_S128x64_S512x64_1_0_0_1_n_n.rhsIdx_val_of_single rfl _ _).trans hk
      | ⟨1, _⟩ => exact rhs_col_512_128_64 _ _)
  rw [el, er]

/-- The left operand's row coordinate is the result's row. -/
theorem lhs_row_512_96_256 (i : S512x256.Idx) (q : dot_S512x96_S96x256_S512x256_1_0_0_1_n_n.contr.Idx) : (dot_S512x96_S96x256_S512x256_1_0_0_1_n_n.lhsIdx i q 0).val = (i 0).val := by
  unfold DotDims.lhsIdx
  rw [dif_neg (show ¬(0 : Fin S512x96.rank) ∈ dot_S512x96_S96x256_S512x256_1_0_0_1_n_n.lhsBatch by decide),
    dif_pos (show (0 : Fin S512x96.rank) ∈ dot_S512x96_S96x256_S512x256_1_0_0_1_n_n.lhsNonContracting by decide)]
  rfl
/-- The right operand's column coordinate is the result's column. -/
theorem rhs_col_512_96_256 (i : S512x256.Idx) (q : dot_S512x96_S96x256_S512x256_1_0_0_1_n_n.contr.Idx) : (dot_S512x96_S96x256_S512x256_1_0_0_1_n_n.rhsIdx i q 1).val = (i 1).val := by
  unfold DotDims.rhsIdx
  rw [dif_neg (show ¬(1 : Fin S96x256.rank) ∈ dot_S512x96_S96x256_S512x256_1_0_0_1_n_n.rhsBatch by decide),
    dif_pos (show (1 : Fin S96x256.rank) ∈ dot_S512x96_S96x256_S512x256_1_0_0_1_n_n.rhsNonContracting by decide)]
  rfl
/-- The product of a [512, 96] and a [96, 256] matrix accumulated into zero, at row `p` and column `q`: the sum
    over `k` of the products of entries `(p, k)` and `(k, q)`. -/
theorem matmul_512_96_256 (l : FVec Ideal S512x96 .bf16) (w : FVec Ideal S96x256 .bf16) (p : Fin 512) (q : Fin 256) :
    matmul dot_S512x96_S96x256_S512x256_1_0_0_1_n_n none l w (constant S512x256 .f32 0x00000000#32) (ix2 p q)
      = ∑ k : Fin 96, l (ix2 p k) * w (ix2 k q) := by
  simp only [matmul]
  rw [Ideal.matmul_constant_zero_apply, ← Equiv.sum_comp (ValueIdx.contrEquiv1 dot_S512x96_S96x256_S512x256_1_0_0_1_n_n 96 rfl rfl).symm]
  refine Finset.sum_congr rfl fun k _ => ?_
  have hk := ValueIdx.contrEquiv1_symm_val dot_S512x96_S96x256_S512x256_1_0_0_1_n_n 96 rfl rfl k
  have el : dot_S512x96_S96x256_S512x256_1_0_0_1_n_n.lhsIdx (ix2 p q) ((ValueIdx.contrEquiv1 dot_S512x96_S96x256_S512x256_1_0_0_1_n_n 96 rfl rfl).symm k) = ix2 p k :=
    funext fun a => Fin.ext (by
      match a with
      | ⟨0, _⟩ => exact lhs_row_512_96_256 _ _
      | ⟨1, _⟩ => exact (dot_S512x96_S96x256_S512x256_1_0_0_1_n_n.lhsIdx_val_of_single rfl _ _).trans hk)
  have er : dot_S512x96_S96x256_S512x256_1_0_0_1_n_n.rhsIdx (ix2 p q) ((ValueIdx.contrEquiv1 dot_S512x96_S96x256_S512x256_1_0_0_1_n_n 96 rfl rfl).symm k) = ix2 k q :=
    funext fun a => Fin.ext (by
      match a with
      | ⟨0, _⟩ => exact (dot_S512x96_S96x256_S512x256_1_0_0_1_n_n.rhsIdx_val_of_single rfl _ _).trans hk
      | ⟨1, _⟩ => exact rhs_col_512_96_256 _ _)
  rw [el, er]

/-- The left operand's row coordinate is the result's row. -/
theorem lhs_row_512_256_16 (i : S512x16.Idx) (q : dot_S512x256_S256x16_S512x16_1_0_0_1_n_n.contr.Idx) : (dot_S512x256_S256x16_S512x16_1_0_0_1_n_n.lhsIdx i q 0).val = (i 0).val := by
  unfold DotDims.lhsIdx
  rw [dif_neg (show ¬(0 : Fin S512x256.rank) ∈ dot_S512x256_S256x16_S512x16_1_0_0_1_n_n.lhsBatch by decide),
    dif_pos (show (0 : Fin S512x256.rank) ∈ dot_S512x256_S256x16_S512x16_1_0_0_1_n_n.lhsNonContracting by decide)]
  rfl
/-- The right operand's column coordinate is the result's column. -/
theorem rhs_col_512_256_16 (i : S512x16.Idx) (q : dot_S512x256_S256x16_S512x16_1_0_0_1_n_n.contr.Idx) : (dot_S512x256_S256x16_S512x16_1_0_0_1_n_n.rhsIdx i q 1).val = (i 1).val := by
  unfold DotDims.rhsIdx
  rw [dif_neg (show ¬(1 : Fin S256x16.rank) ∈ dot_S512x256_S256x16_S512x16_1_0_0_1_n_n.rhsBatch by decide),
    dif_pos (show (1 : Fin S256x16.rank) ∈ dot_S512x256_S256x16_S512x16_1_0_0_1_n_n.rhsNonContracting by decide)]
  rfl
/-- The product of a [512, 256] and a [256, 16] matrix accumulated into zero, at row `p` and column `q`: the sum
    over `k` of the products of entries `(p, k)` and `(k, q)`. -/
theorem matmul_512_256_16 (l : FVec Ideal S512x256 .bf16) (w : FVec Ideal S256x16 .bf16) (p : Fin 512) (q : Fin 16) :
    matmul dot_S512x256_S256x16_S512x16_1_0_0_1_n_n none l w (constant S512x16 .f32 0x00000000#32) (ix2 p q)
      = ∑ k : Fin 256, l (ix2 p k) * w (ix2 k q) := by
  simp only [matmul]
  rw [Ideal.matmul_constant_zero_apply, ← Equiv.sum_comp (ValueIdx.contrEquiv1 dot_S512x256_S256x16_S512x16_1_0_0_1_n_n 256 rfl rfl).symm]
  refine Finset.sum_congr rfl fun k _ => ?_
  have hk := ValueIdx.contrEquiv1_symm_val dot_S512x256_S256x16_S512x16_1_0_0_1_n_n 256 rfl rfl k
  have el : dot_S512x256_S256x16_S512x16_1_0_0_1_n_n.lhsIdx (ix2 p q) ((ValueIdx.contrEquiv1 dot_S512x256_S256x16_S512x16_1_0_0_1_n_n 256 rfl rfl).symm k) = ix2 p k :=
    funext fun a => Fin.ext (by
      match a with
      | ⟨0, _⟩ => exact lhs_row_512_256_16 _ _
      | ⟨1, _⟩ => exact (dot_S512x256_S256x16_S512x16_1_0_0_1_n_n.lhsIdx_val_of_single rfl _ _).trans hk)
  have er : dot_S512x256_S256x16_S512x16_1_0_0_1_n_n.rhsIdx (ix2 p q) ((ValueIdx.contrEquiv1 dot_S512x256_S256x16_S512x16_1_0_0_1_n_n 256 rfl rfl).symm k) = ix2 k q :=
    funext fun a => Fin.ext (by
      match a with
      | ⟨0, _⟩ => exact (dot_S512x256_S256x16_S512x16_1_0_0_1_n_n.rhsIdx_val_of_single rfl _ _).trans hk
      | ⟨1, _⟩ => exact rhs_col_512_256_16 _ _)
  rw [el, er]

end Cert.SetNet.Ker

end
-- ==== Proof.KerRow.lean ====
/-
  The kernel's body, read row by row: what it stores at row `p` of its block and output column `a` is the network
  of Pooling.lean applied to row `p` of the input block, the summary taken by summing the neighbours' second hidden
  layers first and applying the third layer once, its bias multiplied by 32.

  The block's 544 columns are loaded in three pieces (columns 0 to 15, 16 to 31, and 32 to 543); the last piece, a
  [512, 512] matrix, is re-laid as [16384, 16]: row `32 p + n` of it holds the 16 features of neighbour `n` of
  row `p`.  After the two hidden layers the [16384, 128] result is re-laid as [512, 32, 128] and summed over its
  middle axis.  Every change of float format is the identity on the extended reals.
-/
import proofs.«158168_j89816356094668_2_alg».proof.Proof.Gen.KernelIdeal.Value
import proofs.«158168_j89816356094668_2_alg».proof.Proof.KerMatmul
import proofs.«158168_j89816356094668_2_alg».proof.Proof.Pooling
import proofs.«158168_j89816356094668_2_alg».proof.Proof.Coords
import Idealize.ShloMosaic.Lib.ValueIdx
import Idealize.ShloMosaic.Lib.ValueLayout
import Idealize.ShloMosaic.Lib.Pipeline.Value
import Idealize.ShloMosaic.PureOps.Ideal.Laws

noncomputable section

namespace Cert.SetNet.Ker

open Cert.KernelIdeal Cert.KernelIdeal.Gen Idealize.ShloMosaic Idealize.ShloMosaic.ValueIdx Cert.SetNet

/-! ## The three pieces of the input block -/

/-- Columns 0 to 15 of the block. -/
theorem ld_first (x0 : Vec Ideal S512x544 .f32) (p : Fin 512) (s : Fin 16) :
    View.ld x0 r0_0 (ix2 p s) = x0 (ix2 p (⟨s.val, by omega⟩ : Fin 544)) := by
  show x0 (r0_0.emb (ix2 p s)) = _
  refine congrArg x0 (funext fun a => Fin.ext ?_)
  match a with
  | ⟨0, _⟩ => show 0 + 1 * p.val = p.val; omega
  | ⟨1, _⟩ => show 0 + 1 * s.val = s.val; omega

/-- Columns 16 to 31 of the block. -/
theorem ld_second (x0 : Vec Ideal S512x544 .f32) (p : Fin 512) (s : Fin 16) :
    View.ld x0 r0_1 (ix2 p s) = x0 (ix2 p (⟨16 + s.val, by omega⟩ : Fin 544)) := by
  show x0 (r0_1.emb (ix2 p s)) = _
  refine congrArg x0 (funext fun a => Fin.ext ?_)
  match a with
  | ⟨0, _⟩ => show 0 + 1 * p.val = p.val; omega
  | ⟨1, _⟩ => show 16 + 1 * s.val = 16 + s.val; omega

/-- Columns 32 to 543 of the block: the neighbours. -/
theorem ld_nbrs (x0 : Vec Ideal S512x544 .f32) (p : Fin 512) (c : Fin 512) :
    View.ld x0 r0_2 (ix2 p c) = x0 (ix2 p (⟨32 + c.val, by omega⟩ : Fin 544)) := by
  show x0 (r0_2.emb (ix2 p c)) = _
  refine congrArg x0 (funext fun a => Fin.ext ?_)
  match a with
  | ⟨0, _⟩ => show 0 + 1 * p.val = p.val; omega
  | ⟨1, _⟩ => show 32 + 1 * c.val = 32 + c.val; omega

/-! ## The two re-layings and the sum over the neighbours -/

/-- The [512, 512] matrix of neighbours re-laid as [16384, 16]: row `32 p + n`, column `s` is entry `(p, 16 n + s)`. -/
theorem relay_nbrs (v : Vec Ideal S512x512 .f32) (p : Fin 512) (n : Fin 32) (s : Fin 16) :
    shapeCast S16384x16 v shapeCasts_S512x512_S16384x16 (ix2 (⟨32 * p.val + n.val, by omega⟩ : Fin 16384) s)
      = v (ix2 p (⟨16 * n.val + s.val, by omega⟩ : Fin 512)) := by
  refine shapeCast_apply v shapeCasts_S512x512_S16384x16 _ _ ?_
  rewrite [Shape.rowMajor_val_two, Shape.rowMajor_val_two]
  show p.val * 512 + (16 * n.val + s.val) = (32 * p.val + n.val) * 16 + s.val
  omega

/-- A [16384, 128] matrix re-laid as [512, 32, 128]: entry `(p, n, k)` is entry `(32 p + n, k)`. -/
theorem relay_hidden (v : FVec Ideal S16384x128 .f32) (p : Fin 512) (n : Fin 32) (k : Fin 128) :
    shapeCast S512x32x128 v shapeCasts_S16384x128_S512x32x128 (ix3 p n k)
      = v (ix2 (⟨32 * p.val + n.val, by omega⟩ : Fin 16384) k) := by
  refine shapeCast_apply v shapeCasts_S16384x128_S512x32x128 _ _ ?_
  rewrite [Shape.rowMajor_val_two, Shape.rowMajor_val_three]
  show (32 * p.val + n.val) * 128 + k.val = (p.val * 32 + n.val) * 128 + k.val
  omega

/-- The sum over the middle axis of a [512, 32, 128] array, from zero: at `(p, k)` the sum over `n` of the entries
    `(p, n, k)`. -/
theorem sum_nbrs (src : FVec Ideal S512x32x128 .f32) (p : Fin 512) (k : Fin 128) :
    multiReduction .add [1] S512x128 src 0x00000000#32 reduces_S512x32x128_S512x128 (.inl rfl) rfl (ix2 p k)
      = ∑ n : Fin 32, src (ix3 p n k) := by
  refine (Ideal.multiReduction_add_single src 0x00000000#32 reduces_S512x32x128_S512x128 (.inl rfl) rfl (ix2 p k)).trans ?_
  refine Finset.sum_congr rfl fun n _ => congrArg src (funext fun a => Fin.ext ?_)
  match a with
  | ⟨0, _⟩ => rfl
  | ⟨1, _⟩ => rfl
  | ⟨2, _⟩ => rfl

/-! ## The layers -/

/-- The first hidden layer: a product, a bias row added to every row, and the rectifier. -/
theorem layer_hid0 (l : FVec Ideal S16384x16 .bf16) (w : FVec Ideal S16x128 .bf16) (β : Vec Ideal S1x128 .f32)
    (r : Fin 16384) (q : Fin 128) :
    maximumf (addf (matmul dot_S16384x16_S16x128_S16384x128_1_0_0_1_n_n none l w (constant (F := Ideal) S16384x128 .f32 0x00000000#32))
        (broadcastTo S16384x128 (shapeCast S1x128 β shapeCasts_S1x128_S1x128) broadcasts_S1x128_S16384x128))
      (broadcast S16384x128 (Scalar.ofBits (F := Ideal) .f32 0x00000000#32)) (ix2 r q)
      = max (∑ k : Fin 16, l (ix2 r k) * w (ix2 k q) + β (ix2 (0 : Fin 1) q)) 0 := by
  show max (matmul dot_S16384x16_S16x128_S16384x128_1_0_0_1_n_n none l w (constant (F := Ideal) S16384x128 .f32 0x00000000#32) (ix2 r q)
      + broadcastTo S16384x128 (shapeCast S1x128 β shapeCasts_S1x128_S1x128) broadcasts_S1x128_S16384x128 (ix2 r q))
    (Ideal.ofBits .f32 0x00000000#32) = _
  rw [Ideal.ofBits_zero_f32, matmul_16384_16_128, shapeCast_self, broadcastTo_1b_ab_apply]

/-- The second hidden layer. -/
theorem layer_hid1 (l : FVec Ideal S16384x128 .bf16) (w : FVec Ideal S128x128 .bf16) (β : Vec Ideal S1x128 .f32)
    (r : Fin 16384) (q : Fin 128) :
    maximumf (addf (matmul dot_S16384x128_S128x128_S16384x128_1_0_0_1_n_n none l w (constant (F := Ideal) S16384x128 .f32 0x00000000#32))
        (broadcastTo S16384x128 (shapeCast S1x128 β shapeCasts_S1x128_S1x128) broadcasts_S1x128_S16384x128))
      (broadcast S16384x128 (Scalar.ofBits (F := Ideal) .f32 0x00000000#32)) (ix2 r q)
      = max (∑ k : Fin 128, l (ix2 r k) * w (ix2 k q) + β (ix2 (0 : Fin 1) q)) 0 := by
  show max (matmul dot_S16384x128_S128x128_S16384x128_1_0_0_1_n_n none l w (constant (F := Ideal) S16384x128 .f32 0x00000000#32) (ix2 r q)
      + broadcastTo S16384x128 (shapeCast S1x128 β shapeCasts_S1x128_S1x128) broadcasts_S1x128_S16384x128 (ix2 r q))
    (Ideal.ofBits .f32 0x00000000#32) = _
  rw [Ideal.ofBits_zero_f32, matmul_16384_128_128, shapeCast_self, broadcastTo_1b_ab_apply]

/-- The rectified layer on the joined entries. -/
theorem layer_head0 (l : FVec Ideal S512x96 .bf16) (w : FVec Ideal S96x256 .bf16) (β : Vec Ideal S1x256 .f32)
    (r : Fin 512) (q : Fin 256) :
    maximumf (addf (matmul dot_S512x96_S96x256_S512x256_1_0_0_1_n_n none l w (constant (F := Ideal) S512x256 .f32 0x00000000#32))
        (broadcastTo S512x256 (shapeCast S1x256 β shapeCasts_S1x256_S1x256) broadcasts_S1x256_S512x256))
      (broadcast S512x256 (Scalar.ofBits (F := Ideal) .f32 0x00000000#32)) (ix2 r q)
      = max (∑ k : Fin 96, l (ix2 r k) * w (ix2 k q) + β (ix2 (0 : Fin 1) q)) 0 := by
  show max (matmul dot_S512x96_S96x256_S512x256_1_0_0_1_n_n none l w (constant (F := Ideal) S512x256 .f32 0x00000000#32) (ix2 r q)
      + broadcastTo S512x256 (shapeCast S1x256 β shapeCasts_S1x256_S1x256) broadcasts_S1x256_S512x256 (ix2 r q))
    (Ideal.ofBits .f32 0x00000000#32) = _
  rw [Ideal.ofBits_zero_f32, matmul_512_96_256, shapeCast_self, broadcastTo_1b_ab_apply]

/-- The last layer: a product and a bias row added to every row. -/
theorem layer_head1 (l : FVec Ideal S512x256 .bf16) (w : FVec Ideal S256x16 .bf16) (β : Vec Ideal S1x16 .f32)
    (r : Fin 512) (q : Fin 16) :
    addf (matmul dot_S512x256_S256x16_S512x16_1_0_0_1_n_n none l w (constant (F := Ideal) S512x16 .f32 0x00000000#32))
        (broadcastTo S512x16 (shapeCast S1x16 β shapeCasts_S1x16_S1x16) broadcasts_S1x16_S512x16) (ix2 r q)
      = ∑ k : Fin 256, l (ix2 r k) * w (ix2 k q) + β (ix2 (0 : Fin 1) q) := by
  show matmul dot_S512x256_S256x16_S512x16_1_0_0_1_n_n none l w (constant (F := Ideal) S512x16 .f32 0x00000000#32) (ix2 r q)
      + broadcastTo S512x16 (shapeCast S1x16 β shapeCasts_S1x16_S1x16) broadcasts_S1x16_S512x16 (ix2 r q) = _
  rw [matmul_512_256_16, shapeCast_self, broadcastTo_1b_ab_apply]

/-! ## The three payloads -/

/-- The neighbours' part: the second hidden layers summed over the neighbours, then the third layer's product. -/
theorem pooled_at (v2 : Vec Ideal S512x512 .f32) (v5 : Vec Ideal S16x128 .f32) (v8 : Vec Ideal S1x128 .f32)
    (v14 : Vec Ideal S128x128 .f32) (v18 : Vec Ideal S1x128 .f32) (v26 : Vec Ideal S128x64 .f32)
    (row : Fin 544 → EReal) (p : Fin 512)
    (hrow : ∀ c : Fin 512, v2 (ix2 p c) = row (⟨32 + c.val, by omega⟩ : Fin 544)) (d : Fin 64) :
    k0_pay2 v2 v5 v8 v14 v18 v26 (ix2 p d)
      = ∑ k : Fin 128, (∑ n : Fin 32, hid1 row (mat v5) (row1 v8) (mat v14) (row1 v18) n k) * mat v26 k d := by
  unfold k0_pay2
  refine (matmul_512_128_64 _ _ p d).trans ?_
  refine Finset.sum_congr rfl fun k _ => congrArg₂ (· * ·) ?_ rfl
  refine (sum_nbrs _ p k).trans ?_
  refine Finset.sum_congr rfl fun n _ => ?_
  refine (relay_hidden _ p n k).trans ?_
  refine (layer_hid1 _ _ _ _ k).trans ?_
  unfold hid1
  refine congrArg (max · 0) (congrArg₂ (· + ·) (Finset.sum_congr rfl fun h _ => congrArg₂ (· * ·) ?_ rfl) rfl)
  refine (layer_hid0 _ _ _ _ h).trans ?_
  unfold hid0
  refine congrArg (max · 0) (congrArg₂ (· + ·) (Finset.sum_congr rfl fun s _ => congrArg₂ (· * ·) ?_ rfl) rfl)
  refine (relay_nbrs v2 p n s).trans ?_
  exact hrow _

/-- The third layer's bias, taken 32 times. -/
theorem bias32_at (v30 : Vec Ideal S1x64 .f32) (d : Fin 64) :
    k0_pay3 v30 (ix2 (0 : Fin 1) d) = ((32 : ℝ) : EReal) * v30 (ix2 (0 : Fin 1) d) := by
  unfold k0_pay3
  show Ideal.ofBits .f32 0x42000000#32 * shapeCast S1x64 v30 shapeCasts_S1x64_S1x64 (ix2 (0 : Fin 1) d) = _
  rw [ofBits_32, shapeCast_self]

/-- The joined 96 entries of row `p`: the two pieces passed on, then the summary. -/
theorem joined_at (v0 v1 : Vec Ideal S512x16 .f32) (v35 : FVec Ideal S512x64 .f32) (row : Fin 544 → EReal)
    (σ : Fin 64 → EReal) (p : Fin 512)
    (h0 : ∀ s : Fin 16, v0 (ix2 p s) = row (⟨s.val, by omega⟩ : Fin 544))
    (h1 : ∀ s : Fin 16, v1 (ix2 p s) = row (⟨16 + s.val, by omega⟩ : Fin 544))
    (hσ : ∀ d : Fin 64, v35 (ix2 p d) = σ d) (c : Fin 96) :
    concatenate S512x96 1 [⟨S512x16, v0⟩, ⟨S512x16, v1⟩, ⟨S512x64, v35⟩] concatenates_S512x16_S512x16_S512x64_S512x96_d1 (ix2 p c)
      = joined row σ c := by
  unfold joined
  have hc := c.isLt
  by_cases c1 : c.val < 16
  · rw [dif_pos (show c.val < 32 by omega)]
    refine (concatenate_apply_piece (t := S512x96) 1 _ _ (ix2 p c)
      0 (by show (0 : ℕ) < 3; omega) S512x16 v0 rfl rfl 0 rfl (ix2 p ⟨c.val, c1⟩)
      (fun a ha => by match a, ha with | ⟨0, _⟩, _ => rfl | ⟨1, _⟩, ha => exact absurd rfl ha)
      (by show 0 + c.val = c.val; omega)).trans ?_
    exact h0 ⟨c.val, c1⟩
  · by_cases c2 : c.val < 32
    · rw [dif_pos c2]
      refine (concatenate_apply_piece (t := S512x96) 1 _ _ (ix2 p c)
        1 (by show (1 : ℕ) < 3; omega) S512x16 v1 rfl rfl 16 rfl (ix2 p ⟨c.val - 16, by omega⟩)
        (fun a ha => by match a, ha with | ⟨0, _⟩, _ => rfl | ⟨1, _⟩, ha => exact absurd rfl ha)
        (by show 16 + (c.val - 16) = c.val; omega)).trans ?_
      refine (h1 ⟨c.val - 16, by omega⟩).trans (congrArg row (Fin.ext ?_))
      show 16 + (c.val - 16) = c.val; omega
    · rw [dif_neg c2]
      refine (concatenate_apply_piece (t := S512x96) 1 _ _ (ix2 p c)
        2 (by show (2 : ℕ) < 3; omega) S512x64 v35 rfl rfl 32 rfl (ix2 p ⟨c.val - 32, by omega⟩)
        (fun a ha => by match a, ha with | ⟨0, _⟩, _ => rfl | ⟨1, _⟩, ha => exact absurd rfl ha)
        (by show 32 + (c.val - 32) = c.val; omega)).trans ?_
      exact hσ ⟨c.val - 32, by omega⟩

/-- The last two layers of the joined entries. -/
theorem head_at (v0 v1 : Vec Ideal S512x16 .f32) (v29 : FVec Ideal S512x64 .f32) (v33 : FVec Ideal S1x64 .f32)
    (v38 : Vec Ideal S96x256 .f32) (v41 : Vec Ideal S1x256 .f32) (v47 : Vec Ideal S256x16 .f32) (v51 : Vec Ideal S1x16 .f32)
    (row : Fin 544 → EReal) (σ : Fin 64 → EReal) (p : Fin 512)
    (h0 : ∀ s : Fin 16, v0 (ix2 p s) = row (⟨s.val, by omega⟩ : Fin 544))
    (h1 : ∀ s : Fin 16, v1 (ix2 p s) = row (⟨16 + s.val, by omega⟩ : Fin 544))
    (hσ : ∀ d : Fin 64, v29 (ix2 p d) + v33 (ix2 (0 : Fin 1) d) = σ d) (a : Fin 16) :
    k0_pay1 v0 v1 v29 v33 v38 v41 v47 v51 (ix2 p a)
      = head (mat v38) (row1 v41) (mat v47) (row1 v51) (joined row σ) a := by
  unfold k0_pay1
  refine (layer_head1 _ _ _ p a).trans ?_
  unfold head
  refine congrArg₂ (· + ·) (Finset.sum_congr rfl fun j _ => congrArg₂ (· * ·) ?_ rfl) rfl
  refine (layer_head0 _ _ _ p j).trans ?_
  refine congrArg (max · 0) (congrArg₂ (· + ·) (Finset.sum_congr rfl fun c _ => congrArg₂ (· * ·) ?_ rfl) rfl)
  refine joined_at v0 v1 _ row σ p h0 h1 (fun d => ?_) c
  show v29 (ix2 p d) + broadcastTo S512x64 v33 broadcasts_S1x64_S512x64 (ix2 p d) = σ d
  rw [broadcastTo_1b_ab_apply]
  exact hσ d

/-! ## The block the body leaves -/

theorem zero_offsets : (![0, 0] : Fin 2 → Nat) = fun _ => 0 := funext fun a => by fin_cases a <;> rfl

/-- What the body leaves in the output block, at row `p` and column `a`: the network of row `p` of the input block. -/
theorem out_at (x0 : Vec Ideal S512x544 .f32) (x1 : Vec Ideal S16x128 .f32) (x2 : Vec Ideal S1x128 .f32)
    (x3 : Vec Ideal S128x128 .f32) (x4 : Vec Ideal S1x128 .f32) (x5 : Vec Ideal S128x64 .f32) (x6 : Vec Ideal S1x64 .f32)
    (x7 : Vec Ideal S96x256 .f32) (x8 : Vec Ideal S1x256 .f32) (x9 : Vec Ideal S256x16 .f32) (x10 : Vec Ideal S1x16 .f32)
    (p : Fin 512) (a : Fin 16) :
    out0_11 x0 x1 x2 x3 x4 x5 x6 x7 x8 x9 x10 (ix2 p a)
      = head (mat x7) (row1 x8) (mat x9) (row1 x10)
          (joined (rowOf x0 p) (poolBefore (rowOf x0 p) (mat x1) (row1 x2) (mat x3) (row1 x4) (mat x5) (row1 x6))) a := by
  unfold out0_11
  rw [View.canon_unit_zero zero_offsets]
  simp only [View.ld_unit_zero (S := S16x128) zero_offsets, View.ld_unit_zero (S := S1x128) zero_offsets,
    View.ld_unit_zero (S := S128x128) zero_offsets, View.ld_unit_zero (S := S128x64) zero_offsets,
    View.ld_unit_zero (S := S1x64) zero_offsets, View.ld_unit_zero (S := S96x256) zero_offsets,
    View.ld_unit_zero (S := S1x256) zero_offsets, View.ld_unit_zero (S := S256x16) zero_offsets,
    View.ld_unit_zero (S := S1x16) zero_offsets]
  refine head_at _ _ _ _ x7 x8 x9 x10 (rowOf x0 p) _ p (fun s => ld_first x0 p s) (fun s => ld_second x0 p s)
    (fun d => ?_) a
  rw [pooled_at _ x1 x2 x3 x4 x5 (rowOf x0 p) p (fun c => ld_nbrs x0 p c) d, bias32_at]
  rfl

end Cert.SetNet.Ker

end
-- ==== Proof.Blocks.lean ====
/-
  From blocks to the array.  The grid has 32 points; point `t` stages rows `512 t` to `512 t + 511` of the input
  and writes back the same rows of the result, and every other window holds its whole array at every point.  So
  what point `t` writes back is block `t` of one function of the arrays the region finds — the network applied
  row by row —, the 32 blocks cover the result, and the result array ends holding that function.  The five bias
  arrays the region reads are the bias vectors laid as one row by the reshapes before the region.
-/
import proofs.«158168_j89816356094668_2_alg».proof.Proof.Gen.KernelIdeal.Value
import proofs.«158168_j89816356094668_2_alg».proof.Proof.KerRow
import Idealize.ShloMosaic.Lib.Pipeline.Value
import Idealize.ShloMosaic.Lib.ValueLayout
import Idealize.ShloMosaic.Lib.StableHlo.Run

set_option maxRecDepth 16384

noncomputable section

namespace Cert.SetNet.Blocks

open Cert.KernelIdeal Cert.KernelIdeal.Gen Cert.KernelIdeal.Value Idealize.ShloMosaic Idealize.ShloMosaic.TcCoe
open Idealize.SL.Sem Idealize.ShloMosaic.ValueIdx Idealize.ShloMosaic.StableHlo Cert.SetNet
open Idealize.ShloMosaic.Pipeline (Dat)

variable (m : (ℓ : Loc nD τ sig) → Buf (Elt Ideal) ℓ) (ρ : Dev nD → PrngReg)

/-- The network at row `b` and column `a`, the biases given as one-row matrices, the summary taken by summing the
    neighbours first. -/
def netRows (X : Vec Ideal S16384x544 .f32) (w0 : Vec Ideal S16x128 .f32) (b0 : Vec Ideal S1x128 .f32)
    (w1 : Vec Ideal S128x128 .f32) (b1 : Vec Ideal S1x128 .f32) (w2 : Vec Ideal S128x64 .f32) (b2 : Vec Ideal S1x64 .f32)
    (r0 : Vec Ideal S96x256 .f32) (c0 : Vec Ideal S1x256 .f32) (r1 : Vec Ideal S256x16 .f32) (c1 : Vec Ideal S1x16 .f32)
    (b : Fin 16384) (a : Fin 16) : EReal :=
  head (mat r0) (row1 c0) (mat r1) (row1 c1)
    (joined (rowOf X b) (poolBefore (rowOf X b) (mat w0) (row1 b0) (mat w1) (row1 b1) (mat w2) (row1 b2))) a

/-- The result array as one function of the arrays the region finds. -/
def G (c : Dev nD) : S16384x16.Idx → EReal := fun i =>
  netRows (V m c main_arg0) (V m c main_arg1) (V m c main_v0) (V m c main_arg3) (V m c main_v1) (V m c main_arg5)
    (V m c main_v2) (V m c main_arg7) (V m c main_v3) (V m c main_arg9) (V m c main_v4) (i 0) (i 1)

/-- The printed index maps, decided over the 32 points: the input's and the result's block index is the point on the
    rows and zero on the columns; every other window's is zero. -/
theorem idx_facts : ∀ t : Fin cfg0.N,
    win0_0.index t (0 : Fin 2) = t.val
    ∧ win0_0.index t (1 : Fin 2) = 0
    ∧ win0_11.index t (0 : Fin 2) = t.val
    ∧ win0_11.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Window 1 holds its whole array at every point. -/
theorem blk1 (c : Dev nD) (t : Fin cfg0.N) : (iblk m c 1 t : Vec Ideal S16x128 .f32) = V m c main_arg1 := by
  have hi := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 16 + 1 * (y 0).val = (y 0).val; omega
  | ⟨1, _⟩ => show win0_1.index t (1 : Fin 2) * 128 + 1 * (y 1).val = (y 1).val; omega

/-- Window 2 holds its whole array at every point. -/
theorem blk2 (c : Dev nD) (t : Fin cfg0.N) : (iblk m c 2 t : Vec Ideal S1x128 .f32) = V m c main_v0 := by
  have hi := idx_facts t
  funext y
  show V m c main_v0 (((cfg0.win 2).blk t).view.emb y) = V m c main_v0 y
  refine congrArg (V m c main_v0) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3 holds its whole array at every point. -/
theorem blk3 (c : Dev nD) (t : Fin cfg0.N) : (iblk m c 3 t : Vec Ideal S128x128 .f32) = V m c main_arg3 := by
  have hi := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 holds its whole array at every point. -/
theorem blk4 (c : Dev nD) (t : Fin cfg0.N) : (iblk m c 4 t : Vec Ideal S1x128 .f32) = V m c main_v1 := by
  have hi := idx_facts t
  funext y
  show V m c main_v1 (((cfg0.win 4).blk t).view.emb y) = V m c main_v1 y
  refine congrArg (V m c main_v1) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 holds its whole array at every point. -/
theorem blk5 (c : Dev nD) (t : Fin cfg0.N) : (iblk m c 5 t : Vec Ideal S128x64 .f32) = V m c main_arg5 := by
  have hi := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

/-- Window 6 holds its whole array at every point. -/
theorem blk6 (c : Dev nD) (t : Fin cfg0.N) : (iblk m c 6 t : Vec Ideal S1x64 .f32) = V m c main_v2 := by
  have hi := idx_facts t
  funext y
  show V m c main_v2 (((cfg0.win 6).blk t).view.emb y) = V m c main_v2 y
  refine congrArg (V m c main_v2) (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- Window 7 holds its whole array at every point. -/
theorem blk7 (c : Dev nD) (t : Fin cfg0.N) : (iblk m c 7 t : Vec Ideal S96x256 .f32) = V m c main_arg7 := by
  have hi := idx_facts t
  funext y
  show V m c main_arg7 (((cfg0.win 7).blk t).view.emb y) = V m c main_arg7 y
  refine congrArg (V m c main_arg7) (funext fun a => Fin.ext ?_)
  match a with
  | ⟨0, _⟩ => show win0_7.index t (0 : Fin 2) * 96 + 1 * (y 0).val = (y 0).val; omega
  | ⟨1, _⟩ => show win0_7.index t (1 : Fin 2) * 256 + 1 * (y 1).val = (y 1).val; omega

/-- Window 8 holds its whole array at every point. -/
theorem blk8 (c : Dev nD) (t : Fin cfg0.N) : (iblk m c 8 t : Vec Ideal S1x256 .f32) = V m c main_v3 := by
  have hi := idx_facts t
  funext y
  show V m c main_v3 (((cfg0.win 8).blk t).view.emb y) = V m c main_v3 y
  refine congrArg (V m c main_v3) (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

/-- Window 9 holds its whole array at every point. -/
theorem blk9 (c : Dev nD) (t : Fin cfg0.N) : (iblk m c 9 t : Vec Ideal S256x16 .f32) = V m c main_arg9 := by
  have hi := idx_facts t
  funext y
  show V m c main_arg9 (((cfg0.win 9).blk t).view.emb y) = V m c main_arg9 y
  refine congrArg (V m c main_arg9) (funext fun a => Fin.ext ?_)
  match a with
  | ⟨0, _⟩ => show win0_9.index t (0 : Fin 2) * 256 + 1 * (y 0).val = (y 0).val; omega
  | ⟨1, _⟩ => show win0_9.index t (1 : Fin 2) * 16 + 1 * (y 1).val = (y 1).val; omega

/-- Window 10 holds its whole array at every point. -/
theorem blk10 (c : Dev nD) (t : Fin cfg0.N) : (iblk m c 10 t : Vec Ideal S1x16 .f32) = V m c main_v4 := by
  have hi := idx_facts t
  funext y
  show V m c main_v4 (((cfg0.win 10).blk t).view.emb y) = V m c main_v4 y
  refine congrArg (V m c main_v4) (funext fun a => Fin.ext ?_)
  match a with
  | ⟨0, _⟩ => show win0_10.index t (0 : Fin 2) * 1 + 1 * (y 0).val = (y 0).val; omega
  | ⟨1, _⟩ => show win0_10.index t (1 : Fin 2) * 16 + 1 * (y 1).val = (y 1).val; omega

/-- Row `p` of the input's block at point `t` is row `512 t + p` of the input. -/
theorem blk_row (c : Dev nD) (t : Fin cfg0.N) (p : Fin 512) (r : Fin 16384) (hr : r.val = 512 * t.val + p.val) :
    rowOf (iblk m c 0 t : Vec Ideal S512x544 .f32) p = rowOf (V m c main_arg0 : Vec Ideal S16384x544 .f32) r := by
  have hi := idx_facts t
  funext q
  show V m c main_arg0 (((cfg0.win 0).blk t).view.emb (ix2 p q)) = V m c main_arg0 (ix2 r q)
  refine congrArg (V m c main_arg0) (funext fun a => Fin.ext ?_)
  match a with
  | ⟨0, _⟩ => show win0_0.index t (0 : Fin 2) * 512 + 1 * p.val = r.val; omega
  | ⟨1, _⟩ => show win0_0.index t (1 : Fin 2) * 544 + 1 * q.val = q.val; omega

/-- Row `p` of the result's block at point `t` is row `512 t + p` of the result. -/
theorem emb_out (t : Fin cfg0.N) (p : Fin 512) (a : Fin 16) (r : Fin 16384) (hr : r.val = 512 * t.val + p.val) :
    ((cfg0.win 11).blk t).view.emb (ix2 p a) = ix2 r a := by
  have hi := idx_facts t
  funext d; apply Fin.ext
  match d with
  | ⟨0, _⟩ => show win0_11.index t (0 : Fin 2) * 512 + 1 * p.val = r.val; omega
  | ⟨1, _⟩ => show win0_11.index t (1 : Fin 2) * 16 + 1 * a.val = a.val; omega

/-- WHAT POINT `t` WRITES BACK is block `t` of the network applied row by row. -/
theorem flushed_eq (c : Dev nD) (t : Fin cfg0.N) :
    (dats m 0 c).flushed 11 t = ((cfg0.win 11).blk t).view.read (Elt Ideal) (G m c) := by
  rw [flushed11]
  funext j
  obtain ⟨p, a, rfl⟩ : ∃ (p : Fin 512) (a : Fin 16), j = ix2 p a := ⟨j 0, j 1, eq_ix2 j⟩
  have ht : t.val < 32 := lt_of_lt_of_eq t.isLt N_0
  have hp := p.isLt
  have hr : 512 * t.val + p.val < 16384 := by omega
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p a)
    = G m c (((cfg0.win 11).blk t).view.emb (ix2 p a))
  rw [emb_out t p a ⟨512 * t.val + p.val, hr⟩ rfl]
  refine (Ker.out_at _ _ _ _ _ _ _ _ _ _ _ p a).trans ?_
  show _ = netRows (V m c main_arg0) (V m c main_arg1) (V m c main_v0) (V m c main_arg3) (V m c main_v1) (V m c main_arg5)
    (V m c main_v2) (V m c main_arg7) (V m c main_v3) (V m c main_arg9) (V m c main_v4) ⟨512 * t.val + p.val, hr⟩ a
  unfold netRows
  rw [blk_row m c t p ⟨512 * t.val + p.val, hr⟩ rfl, blk1, blk2, blk3, blk4, blk5, blk6, blk7, blk8, blk9, blk10]

/-- An index of the result is in point `t`'s block iff its row is among the point's 512 rows. -/
theorem mem_blk (t : Fin cfg0.N) (i : S16384x16.Idx) :
    i ∈ ((cfg0.win 11).blk t).view.set ↔ ∀ a : Fin 2, win0_11.index t a * S512x16.size a ≤ (i a).val ∧ (i a).val < win0_11.index t a * S512x16.size a + S512x16.size a := by
  show i ∈ ((View.whole main_v5).slice (win0_11.rect t)).set ↔ _
  rw [View.set_slice_whole, Rect.mem_set_unit]
  exact Iff.rfl

/-- The 32 blocks cover the result: row `r` is in the block of point `r / 512`. -/
theorem cover (i : S16384x16.Idx) : ∃ t : Fin cfg0.N, (cfg0.win 11).flush t = true ∧ i ∈ ((cfg0.win 11).blk t).view.set := by
  have h0 : (i 0).val < 16384 := (i 0).isLt
  have h1 : (i 1).val < 16 := (i 1).isLt
  have hN : cfg0.N = 32 := N_0
  let t : Fin cfg0.N := ⟨(i 0).val / 512, by rw [hN]; omega⟩
  have hi := idx_facts t
  have tv : t.val = (i 0).val / 512 := rfl
  refine ⟨t, flush0_11 t, ?_⟩
  rw [mem_blk]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 16 ≤ (i 1).val ∧ (i 1).val < win0_11.index t (1 : Fin 2) * 16 + 16; omega

/-- THE ARRAY after the run is the network applied row by row. -/
theorem final (c : Dev nD) : (dats m 0 c).arrAt 11 cfg0.N = G m c :=
  (dats m 0 c).arrAt_eq_of_cover 11 (G m c) (fun t _ => flushed_eq m c t) cover

/-! ## The arrays the region finds, in terms of the launch memory -/

/-- The array window reads for this bias is the bias vector laid as one row. -/
theorem bias_main_v0 (c : Dev nD) : row1 (V m c main_v0 : Vec Ideal S1x128 .f32) = vec (m ((c : Thread nD τ).loc main_arg2) : FVec Ideal S128 .f32) := by
  have e : (V m c main_v0 : S1x128.Idx → EReal) = shapeCast S1x128 (m ((c : Thread nD τ).loc main_arg2)) shapeCasts_S128_S1x128 := by
    dsimp only [Gen.V, Gen.hostOps0]; after_results; rfl
  funext q
  show (V m c main_v0 : S1x128.Idx → EReal) (ix2 (0 : Fin 1) q) = _
  rw [e]
  exact shapeCast_a_1a_apply _ _ (0 : Fin 1) q

/-- The array window reads for this bias is the bias vector laid as one row. -/
theorem bias_main_v1 (c : Dev nD) : row1 (V m c main_v1 : Vec Ideal S1x128 .f32) = vec (m ((c : Thread nD τ).loc main_arg4) : FVec Ideal S128 .f32) := by
  have e : (V m c main_v1 : S1x128.Idx → EReal) = shapeCast S1x128 (m ((c : Thread nD τ).loc main_arg4)) shapeCasts_S128_S1x128 := by
    dsimp only [Gen.V, Gen.hostOps0]; after_results; rfl
  funext q
  show (V m c main_v1 : S1x128.Idx → EReal) (ix2 (0 : Fin 1) q) = _
  rw [e]
  exact shapeCast_a_1a_apply _ _ (0 : Fin 1) q

/-- The array window reads for this bias is the bias vector laid as one row. -/
theorem bias_main_v2 (c : Dev nD) : row1 (V m c main_v2 : Vec Ideal S1x64 .f32) = vec (m ((c : Thread nD τ).loc main_arg6) : FVec Ideal S64 .f32) := by
  have e : (V m c main_v2 : S1x64.Idx → EReal) = shapeCast S1x64 (m ((c : Thread nD τ).loc main_arg6)) shapeCasts_S64_S1x64 := by
    dsimp only [Gen.V, Gen.hostOps0]; after_results; rfl
  funext q
  show (V m c main_v2 : S1x64.Idx → EReal) (ix2 (0 : Fin 1) q) = _
  rw [e]
  exact shapeCast_a_1a_apply _ _ (0 : Fin 1) q

/-- The array window reads for this bias is the bias vector laid as one row. -/
theorem bias_main_v3 (c : Dev nD) : row1 (V m c main_v3 : Vec Ideal S1x256 .f32) = vec (m ((c : Thread nD τ).loc main_arg8) : FVec Ideal S256 .f32) := by
  have e : (V m c main_v3 : S1x256.Idx → EReal) = shapeCast S1x256 (m ((c : Thread nD τ).loc main_arg8)) shapeCasts_S256_S1x256 := by
    dsimp only [Gen.V, Gen.hostOps0]; after_results; rfl
  funext q
  show (V m c main_v3 : S1x256.Idx → EReal) (ix2 (0 : Fin 1) q) = _
  rw [e]
  exact shapeCast_a_1a_apply _ _ (0 : Fin 1) q

/-- The array window reads for this bias is the bias vector laid as one row. -/
theorem bias_main_v4 (c : Dev nD) : row1 (V m c main_v4 : Vec Ideal S1x16 .f32) = vec (m ((c : Thread nD τ).loc main_arg10) : FVec Ideal S16 .f32) := by
  have e : (V m c main_v4 : S1x16.Idx → EReal) = shapeCast S1x16 (m ((c : Thread nD τ).loc main_arg10)) shapeCasts_S16_S1x16 := by
    dsimp only [Gen.V, Gen.hostOps0]; after_results; rfl
  funext q
  show (V m c main_v4 : S1x16.Idx → EReal) (ix2 (0 : Fin 1) q) = _
  rw [e]
  exact shapeCast_a_1a_apply _ _ (0 : Fin 1) q

/-- The network at row `b` and column `a` of the launch memory's arrays, the summary taken by `pool`. -/
def netOf (pool : (Fin 544 → EReal) → (Fin 16 → Fin 128 → EReal) → (Fin 128 → EReal) → (Fin 128 → Fin 128 → EReal)
      → (Fin 128 → EReal) → (Fin 128 → Fin 64 → EReal) → (Fin 64 → EReal) → Fin 64 → EReal)
    (X : FVec Ideal S16384x544 .f32) (w0 : FVec Ideal S16x128 .f32) (b0 : FVec Ideal S128 .f32)
    (w1 : FVec Ideal S128x128 .f32) (b1 : FVec Ideal S128 .f32) (w2 : FVec Ideal S128x64 .f32) (b2 : FVec Ideal S64 .f32)
    (r0 : FVec Ideal S96x256 .f32) (c0 : FVec Ideal S256 .f32) (r1 : FVec Ideal S256x16 .f32) (c1 : FVec Ideal S16 .f32) :
    S16384x16.Idx → EReal := fun i =>
  head (mat r0) (vec c0) (mat r1) (vec c1)
    (joined (rowOf X (i 0)) (pool (rowOf X (i 0)) (mat w0) (vec b0) (mat w1) (vec b1) (mat w2) (vec b2))) (i 1)

/-- The result array in terms of the launch memory. -/
theorem G_eq (c : Dev nD) :
    G m c = netOf poolBefore (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) := by
  funext i
  unfold G netRows netOf
  rw [bias_main_v0, bias_main_v1, bias_main_v2, bias_main_v3, bias_main_v4, V_main_arg0, V_main_arg1, V_main_arg3,
    V_main_arg5, V_main_arg7, V_main_arg9]

/-- The kernel's run: the result array ends at the network applied row by row, the arguments unchanged. -/
theorem run : θ_run defs (onTc (τ := τ) (main (F := Ideal))) ⟨m, fun _ => 0, ρ⟩ fun r => ∀ c : Dev nD,
      r.2.mem ((c : Thread nD τ).loc main_v5) = netOf poolBefore (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (G_eq m c)), (h c).2⟩) (Value.run_blocks m ρ)

end Cert.SetNet.Blocks

end
-- ==== Proof.FiniteInputs.lean ====
/-
  From the precondition to finiteness.  The precondition says, of each of the eleven argument arrays, that the
  absolute value of every entry is below the word `0x7F800000`, which on the extended reals is `+∞`; an extended
  real whose absolute value `max x (-x)` is below `+∞` is neither infinity, that is, it is a real number.
-/
import proofs.«158168_j89816356094668_2_alg».proof.Pre_finite_inputs
import proofs.«158168_j89816356094668_2_alg».proof.Proof.LibERealFinite
import Idealize.ShloMosaic.Lib.ReduceAll
import Idealize.ShloMosaic.Lib.ValueIdx
import Idealize.ShloMosaic.PureOps.Ideal.Laws

noncomputable section

namespace Cert.SetNet.Pre

open Cert.Pre_finite_inputs Idealize.ShloMosaic Idealize.ShloMosaic.ValueIdx Cert.Lib.Finite

variable [Cert.Pre_finite_inputs.Facts]

/-- The scalar shape has one index. -/
instance : Subsingleton S_.Idx := ⟨fun a b => funext fun d => d.elim0⟩

/-- The word `0x7F800000` is `+∞`. -/
theorem top_word : Ideal.ofBits .f32 0x7F800000#32 = (⊤ : EReal) := by simp [Ideal.ofBits, Ideal.ieee]

/-- An extended real whose absolute value is below `+∞` is finite. -/
theorem fin_of_abs_lt (x : EReal) (h : Ideal.cmp .olt (max x (-x)) (Ideal.ofBits .f32 0x7F800000#32) = 1#1) : Fin' x := by
  rw [top_word] at h
  induction x using EReal.rec with
  | bot => simp [Ideal.cmp] at h
  | top => simp [Ideal.cmp] at h
  | coe r => exact fin_coe r

/-- If every entry of an array compares below `+∞` in absolute value, every entry is finite. -/
theorem fin_of_all {S : Shape} {axes : List (Fin S.rank)} (a : FVec Ideal S .f32)
    (bc : S_.BroadcastsInDim S (![] : Fin 0 → Fin S.rank)) (hred : S.ReducesTo axes S_) (hu : 0 < S_.numel) (init : IVec S_ 1)
    (e : Host.reduce IntOp.andi (cmpf .olt (Host.absf a) (broadcastInDim S ![] bc (constant (F := Ideal) S_ .f32 0x7F800000#32))) init hred hu ix0 = 1#1)
    (i : S.Idx) : Fin' (a i) :=
  fin_of_abs_lt (a i) (Host.reduce_andi_all _ init hred hu ix0 e i)

/-- Under the precondition every entry of every argument array is finite. -/
theorem entries_finite (a0 : FVec Ideal S16384x544 .f32) (a1 : FVec Ideal S16x128 .f32) (a2 : FVec Ideal S128 .f32) (a3 : FVec Ideal S128x128 .f32) (a4 : FVec Ideal S128 .f32) (a5 : FVec Ideal S128x64 .f32) (a6 : FVec Ideal S64 .f32) (a7 : FVec Ideal S96x256 .f32) (a8 : FVec Ideal S256 .f32) (a9 : FVec Ideal S256x16 .f32) (a10 : FVec Ideal S16 .f32)
    (h : fn (F := Ideal) a0 a1 a2 a3 a4 a5 a6 a7 a8 a9 a10 = fun _ => 1#1) :
    (∀ i, Fin' (a0 i)) ∧ (∀ i, Fin' (a1 i)) ∧ (∀ i, Fin' (a2 i)) ∧ (∀ i, Fin' (a3 i)) ∧ (∀ i, Fin' (a4 i)) ∧ (∀ i, Fin' (a5 i)) ∧ (∀ i, Fin' (a6 i)) ∧ (∀ i, Fin' (a7 i)) ∧ (∀ i, Fin' (a8 i)) ∧ (∀ i, Fin' (a9 i)) ∧ (∀ i, Fin' (a10 i)) := by
  have h0 := congrFun h ix0
  simp only [fn, fn_part1, fn_part2, fn_part3, andi, IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨fin_of_all a0 _ _ _ _ e0, fin_of_all a1 _ _ _ _ e1, fin_of_all a2 _ _ _ _ e2, fin_of_all a3 _ _ _ _ e3, fin_of_all a4 _ _ _ _ e4, fin_of_all a5 _ _ _ _ e5, fin_of_all a6 _ _ _ _ e6, fin_of_all a7 _ _ _ _ e7, fin_of_all a8 _ _ _ _ e8, fin_of_all a9 _ _ _ _ e9, fin_of_all a10 _ _ _ _ e10⟩

end Cert.SetNet.Pre

end
-- ==== Proof.lean ====
/-
  The kernel and the reference compute one function of their arguments, row by row.

  A row of the input holds two blocks of 16 entries that are passed on and 32 neighbours of 16 features.  Every
  neighbour goes through two rectified dense layers; a third, linear layer and a sum over the neighbours give a
  summary of 64 entries; the passed-on blocks and the summary go through a rectified dense layer and a linear one.
  The reference applies the third layer to every neighbour and then sums; the kernel sums the neighbours first,
  applies the layer once and adds its bias 32 times.  On the extended reals every change of float format is the
  identity and every matrix product and sum is the exact one, so the two differ only in that order, and for
  finite entries — which the precondition gives — a linear layer commutes with a finite sum (Pooling.lean).

  The kernel's side: what the body stores at a row of its block (KerRow.lean), the 32 blocks as one array
  (Blocks.lean).  The reference's side: its stages read at explicit coordinates (RefRow.lean).  Finiteness of every
  entry from the precondition: FiniteInputs.lean.  The three frames are the generated ones; the idealization
  rewrote nothing, so there is nothing to preserve.
-/
import proofs.«158168_j89816356094668_2_alg».proof.Defs
import proofs.«158168_j89816356094668_2_alg».proof.Proof.Gen.Kernel
import proofs.«158168_j89816356094668_2_alg».proof.Proof.Gen.Kernel.Skeleton
import proofs.«158168_j89816356094668_2_alg».proof.Proof.Gen.Kernel.Launch
import proofs.«158168_j89816356094668_2_alg».proof.Proof.Gen.Kernel.Points
import proofs.«158168_j89816356094668_2_alg».proof.Proof.Gen.Kernel.Frame
import proofs.«158168_j89816356094668_2_alg».proof.Proof.Gen.KernelIdeal
import proofs.«158168_j89816356094668_2_alg».proof.Proof.Gen.KernelIdeal.Skeleton
import proofs.«158168_j89816356094668_2_alg».proof.Proof.Gen.KernelIdeal.Launch
import proofs.«158168_j89816356094668_2_alg».proof.Proof.Gen.KernelIdeal.Points
import proofs.«158168_j89816356094668_2_alg».proof.Proof.Gen.KernelIdeal.Frame
import proofs.«158168_j89816356094668_2_alg».proof.Proof.Gen.KernelIdeal.Value
import proofs.«158168_j89816356094668_2_alg».proof.Proof.Gen.ReferenceIdeal
import proofs.«158168_j89816356094668_2_alg».proof.Proof.Gen.ReferenceIdeal.Run
import proofs.«158168_j89816356094668_2_alg».proof.Proof.Gen.ReferenceIdeal.Read
import proofs.«158168_j89816356094668_2_alg».proof.Proof.Gen.Pre_finite_inputs
import proofs.«158168_j89816356094668_2_alg».proof.Proof.RefRow
import proofs.«158168_j89816356094668_2_alg».proof.Proof.Blocks
import proofs.«158168_j89816356094668_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx
open Cert.SetNet Cert.Lib.Finite

/-! ## The frames, and the empty idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-! ## The two sides as one function -/

/-- The reference's result array is the network applied row by row, the summary taken after the third layer. -/
theorem ref_eq (x0 : FVec Ideal Cert.ReferenceIdeal.S16384x544 .f32) (x1 : FVec Ideal Cert.ReferenceIdeal.S16x128 .f32) (x2 : FVec Ideal Cert.ReferenceIdeal.S128 .f32) (x3 : FVec Ideal Cert.ReferenceIdeal.S128x128 .f32) (x4 : FVec Ideal Cert.ReferenceIdeal.S128 .f32) (x5 : FVec Ideal Cert.ReferenceIdeal.S128x64 .f32) (x6 : FVec Ideal Cert.ReferenceIdeal.S64 .f32) (x7 : FVec Ideal Cert.ReferenceIdeal.S96x256 .f32) (x8 : FVec Ideal Cert.ReferenceIdeal.S256 .f32) (x9 : FVec Ideal Cert.ReferenceIdeal.S256x16 .f32) (x10 : FVec Ideal Cert.ReferenceIdeal.S16 .f32) :
    Cert.ReferenceIdeal.Read.val_main_v28 (F := Ideal) x0 x1 x2 x3 x4 x5 x6 x7 x8 x9 x10 = Blocks.netOf poolAfter x0 x1 x2 x3 x4 x5 x6 x7 x8 x9 x10 := by
  funext i
  obtain ⟨b, a, rfl⟩ : ∃ (b : Fin 16384) (a : Fin 16), i = ix2 b a := ⟨i 0, i 1, eq_ix2 i⟩
  exact Ref.v28_at x0 x1 x2 x3 x4 x5 x6 x7 x8 x9 x10 b a

/-- On finite arrays the two orders of taking the summary give one result array. -/
theorem net_eq (x0 : FVec Ideal Cert.KernelIdeal.S16384x544 .f32) (x1 : FVec Ideal Cert.KernelIdeal.S16x128 .f32) (x2 : FVec Ideal Cert.KernelIdeal.S128 .f32) (x3 : FVec Ideal Cert.KernelIdeal.S128x128 .f32) (x4 : FVec Ideal Cert.KernelIdeal.S128 .f32) (x5 : FVec Ideal Cert.KernelIdeal.S128x64 .f32) (x6 : FVec Ideal Cert.KernelIdeal.S64 .f32) (x7 : FVec Ideal Cert.KernelIdeal.S96x256 .f32) (x8 : FVec Ideal Cert.KernelIdeal.S256 .f32) (x9 : FVec Ideal Cert.KernelIdeal.S256x16 .f32) (x10 : FVec Ideal Cert.KernelIdeal.S16 .f32)
    (f0 : ∀ i, Fin' (x0 i)) (f1 : ∀ i, Fin' (x1 i)) (f2 : ∀ i, Fin' (x2 i)) (f3 : ∀ i, Fin' (x3 i)) (f4 : ∀ i, Fin' (x4 i))
    (f5 : ∀ i, Fin' (x5 i)) (f6 : ∀ i, Fin' (x6 i)) :
    Blocks.netOf poolBefore x0 x1 x2 x3 x4 x5 x6 x7 x8 x9 x10 = Blocks.netOf poolAfter x0 x1 x2 x3 x4 x5 x6 x7 x8 x9 x10 := by
  funext i
  unfold Blocks.netOf
  have e : poolBefore (rowOf x0 (i 0)) (mat x1) (vec x2) (mat x3) (vec x4) (mat x5) (vec x6)
      = poolAfter (rowOf x0 (i 0)) (mat x1) (vec x2) (mat x3) (vec x4) (mat x5) (vec x6) :=
    funext fun d => poolBefore_eq_poolAfter _ _ _ _ _ _ _ (fun _ => f0 _) (fun _ _ => f1 _) (fun _ => f2 _)
      (fun _ _ => f3 _) (fun _ => f4 _) (fun _ _ => f5 _) (fun _ => f6 _) d
  rw [e]

/-! ## The claim -/

/-- From memories agreeing on the arguments both programs end with the network applied row by row in the result:
    the kernel by its blocks and the law of the summary, the reference by its stages. -/
theorem algebraic : Cert.algebraic_KernelIdeal_ReferenceIdeal := by
  intro m ρ m' ρ' hpre hagree
  refine ⟨fun c => Blocks.netOf poolAfter (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩) (Blocks.run m ρ)
    obtain ⟨f0, f1, f2, f3, f4, f5, f6, -⟩ := Pre.entries_finite _ _ _ _ _ _ _ _ _ _ _ (hpre c)
    exact net_eq _ _ _ _ _ _ _ _ _ _ _ f0 f1 f2 f3 f4 f5 f6
  · refine (θ_run Cert.ReferenceIdeal.defs _ _).mono (fun _ h c => ⟨?_, (h c).2⟩)
      (Cert.ReferenceIdeal.Value.run (F := Ideal) m' ρ')
    rw [(h c).1, Cert.ReferenceIdeal.Read.val_main_v28_eq, ref_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
